-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 18
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  reducesTo_S8192x1_S_d0_1 : S8192x1.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Kernel.Entry.lean ====
/-
  The kernel program's host lines around its one pallas_call. Before the region the host squares and row-sums the
  features, takes the square root, clamps it below by 1e-12, divides each row by its norm, rounds to bf16 and lays the
  cluster ids out as a column and as a row; after it the host sums the per-row losses. This module names the contents
  of every TensorCore buffer as the region finds it (the launch contents pushed through the lines before the region)
  and shows that the program is those lines, the region, and the one closing sum.
-/
import proofs.«113577_j7507602833891_2_alg».proof.Proof.Gen.Kernel.Launch
import proofs.«113577_j7507602833891_2_alg».proof.Proof.Gen.Kernel.Points
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: the launch contents after the norm's five lines and
    the eight lines that normalise, round and reshape. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the closing sum: holding the unscoped buffers at the
    launch contents it reduces to the region, continued by the sum, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

end Cert.Kernel.Hand

end
-- ==== Proof.Kernel.SharedArray.lean ====
import proofs.«113577_j7507602833891_2_alg».proof.Proof.Kernel.Entry

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The row block and the column block of the similarity tile are both cut from ONE array, the normalised features.
  The launch hands the pipeline each DISTINCT array once, whole; the pipeline's proof data holds one points-to per
  WINDOW. The two agree when the two windows on the features array each hold half of it: a points-to at the full
  share is the two at its halves, at the same contents.
-/

/-- The distinct arrays behind the five windows, one by one: the normalised features, the ids as a column, the ids
    as a row, the per-row losses. -/
theorem arrBufs_listed (c : Dev nD) (Vv : (b : Ref sig .tc) → Buf (Elt F) ((c : Thread nD τ).loc b)) :
    (Pipeline.arrBufs spec0 c Vv : sProp 𝕄)
      = iprop((((c : Thread nD τ).loc main_v5) ↦{fullShare} Vv main_v5) ∗ (((c : Thread nD τ).loc main_v6) ↦{fullShare} Vv main_v6)
          ∗ (((c : Thread nD τ).loc main_v7) ↦{fullShare} Vv main_v7) ∗ (((c : Thread nD τ).loc main_v8) ↦{fullShare} Vv main_v8)) := by
  unfold Pipeline.arrBufs
  exact bigSep_eq_bigSepL_of_eq [main_v5, main_v6, main_v7, main_v8] (by decide) (by decide) _

variable {c : Dev nD} (dat : Dat τ (Elt F) Unit ℕ (UR sig nD τ) ℕ cfg0 c)

/-- The proof data's arrays, window by window, at the shares the windows hold: the two windows on the features
    array a half each, every other window its whole array. -/
theorem arrays_listed (hq0 : dat.q 0 = fullShare.left) (hq1 : dat.q 1 = fullShare.right) (hq2 : dat.q 2 = fullShare) (hq3 : dat.q 3 = fullShare)
    (Fw : (w : Fin cfg0.W) → Buf (Elt F) ((cfg0.win w).arr.view.loc (c : Thread nD τ))) :
    (dat.arrays Fw : sProp 𝕄)
      = iprop((((c : Thread nD τ).loc main_v5) ↦{fullShare.left} Fw 0) ∗ (((c : Thread nD τ).loc main_v5) ↦{fullShare.right} Fw 1)
          ∗ (((c : Thread nD τ).loc main_v6) ↦{fullShare} Fw 2) ∗ (((c : Thread nD τ).loc main_v7) ↦{fullShare} Fw 3)
          ∗ (((c : Thread nD τ).loc main_v8) ↦{fullShare} Fw 4)) := by
  unfold Dat.arrays
  rw [bigSep_W0]
  rw [show dat.share 0 = fullShare.left from hq0, show dat.share 1 = fullShare.right from hq1,
    show dat.share 2 = fullShare from hq2, show dat.share 3 = fullShare from hq3, show dat.share 4 = fullShare from rfl]
  rw [(arr_whole0 0).set_eq_univ, (arr_whole0 2).set_eq_univ, (arr_whole0 3).set_eq_univ, (arr_whole0 4).set_eq_univ]

/-- From the distinct arrays, each whole, to the windows' arrays: the features array splits into its halves. -/
theorem arrays_of_arrBufs (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊢ dat.arrays Fw := by
  rw [arrBufs_listed, arrays_listed dat hq0 hq1 hq2 hq3, hF 0, hF 1, hF 2, hF 3, hF 4]
  iintro ⟨H5, H6, H7, H8⟩
  ihave H := (pointsTo_share (PosShare.mem_left_op_right fullShare)).1 $$ H5
  icases H with ⟨Hl, Hr⟩
  isplitl [Hl]; · iexact Hl
  isplitl [Hr]; · iexact Hr
  isplitl [H6]; · iexact H6
  isplitl [H7]; · iexact H7
  iexact H8

/-- And back: the two halves of the features array, at the same contents, are the whole. -/
theorem arrBufs_of_arrays (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (dat.arrays Fw : sProp 𝕄) ⊢ Pipeline.arrBufs spec0 c Vv := by
  rw [arrBufs_listed, arrays_listed dat hq0 hq1 hq2 hq3, hF 0, hF 1, hF 2, hF 3, hF 4]
  iintro ⟨Hl, Hr, H6, H7, H8⟩
  isplitl [Hl Hr]
  · iapply (pointsTo_share (PosShare.mem_left_op_right fullShare)).2
    isplitl [Hl]; · iexact Hl
    iexact Hr
  isplitl [H6]; · iexact H6
  isplitl [H7]; · iexact H7
  iexact H8

end Cert.Kernel.Hand

end
-- ==== Proof.Kernel.SharedLaunch.lean ====
import proofs.«113577_j7507602833891_2_alg».proof.Proof.Kernel.SharedArray

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-!
  The run of the whole program from any proof data for its one pipeline in which the two windows on the features
  array hold half of it each. Two windows read one array, so neither can own it whole: it is split into halves at the
  region's entry, the halves are put together again at its exit (an input array is never written, so both windows end
  at the entry contents), the closing sum runs on all unscoped buffers, and the array is split once more so that every
  window ends holding its own share.
-/

/-- What core `c`'s buffers hold when the region is left: the per-row losses at what the write-backs made of them,
    every other buffer at what the region found. -/
def exitVal (c : Dev nD) : Valuation τ sig (Elt F) :=
  Function.update (V0 m c) (Proc.devRef .tc main_v8) ((dats 0 c).arrAt 4 cfg0.N)

/-- And after the closing sum. -/
def endVal (c : Dev nD) : Valuation τ sig (Elt F) := StableHlo.after (List.flatten [hostOps1]) (exitVal m dats c)

/-- An input array is never written: at the region's exit every window's array holds what `exitVal` says. -/
theorem exitVal_arr (hA : ∀ c w, (dats 0 c).A w = V m c (Pipeline.arrRef spec0 w)) (c : Dev nD) (w : Fin cfg0.W) :
    (dats 0 c).arrAt w cfg0.N = exitVal m dats c (Proc.devRef .tc (Pipeline.arrRef spec0 w)) := by
  unfold exitVal
  match w with
  | ⟨0, _⟩ => exact (((dats 0 c).arrAt_in 0 rfl _).trans (hA c 0)).trans (Function.update_of_ne (StableHlo.devRef_ne_of_ne (by decide)) _ _).symm
  | ⟨1, _⟩ => exact (((dats 0 c).arrAt_in 1 rfl _).trans (hA c 1)).trans (Function.update_of_ne (StableHlo.devRef_ne_of_ne (by decide)) _ _).symm
  | ⟨2, _⟩ => exact (((dats 0 c).arrAt_in 2 rfl _).trans (hA c 2)).trans (Function.update_of_ne (StableHlo.devRef_ne_of_ne (by decide)) _ _).symm
  | ⟨3, _⟩ => exact (((dats 0 c).arrAt_in 3 rfl _).trans (hA c 3)).trans (Function.update_of_ne (StableHlo.devRef_ne_of_ne (by decide)) _ _).symm
  | ⟨4, _⟩ => exact (Function.update_self (β := fun b : DevRef τ sig => BufTy.Contents (Elt F) b.ty) (Proc.devRef .tc main_v8) _ (V0 m c)).symm

/-- The closing sum writes no array of the pipeline. -/
theorem tail_keeps (w : Fin cfg0.W) : ∀ op ∈ (List.flatten [hostOps1] : List (HloOp τ sig (Elt F))),
    Proc.devRef .tc (Pipeline.arrRef spec0 w) ∉ op.writes := by
  intro op hop
  simp only [List.flatten_cons, List.flatten_nil, List.append_nil, hostOps1, List.mem_cons, List.mem_nil_iff, or_false] at hop
  rcases hop with rfl | rfl
  all_goals fin_cases w <;> simp only [StableHlo.nullary_writes, StableHlo.binary_writes, Finset.mem_singleton] <;> exact StableHlo.devRef_ne_of_ne (by decide)

theorem endVal_arr (hA : ∀ c w, (dats 0 c).A w = V m c (Pipeline.arrRef spec0 w)) (c : Dev nD) (w : Fin cfg0.W) :
    (dats 0 c).arrAt w cfg0.N = endVal m dats c (Proc.devRef .tc (Pipeline.arrRef spec0 w)) := by
  unfold endVal
  rw [StableHlo.after_of_forall_not_mem _ _ (tail_keeps w)]
  exact exitVal_arr m dats hA c w

/-- A buffer that bypasses the region is none of the arrays: it leaves the region as it entered. -/
theorem exitVal_rest (c : Dev nD) (b : Ref sig .tc) (hb : b ∈ Pipeline.restRefs sig spec0) :
    exitVal m dats c (Proc.devRef .tc b) = V m c b := by
  unfold exitVal
  refine Function.update_of_ne (fun e => ?_) _ _
  have : b = main_v8 := Proc.devRef_injective _ e
  subst this
  exact (Finset.mem_sdiff.mp hb).2 (Finset.mem_image.mpr ⟨4, Finset.mem_univ _, rfl⟩)

local notation "𝔻" => Pipeline.defs (fun q => Pipeline.Cfg.toPCfg (Val := Elt F) (cfgs q)) (defs₀ (F := F))

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

variable (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (hA : ∀ c w, (dats 0 c).A w = V m c (Pipeline.arrRef spec0 w))

include hq0 hq1 hq2 hq3 hA in
/-- At the region's exit the windows' arrays and the bypassing buffers are all the unscoped buffers, at `exitVal`. -/
theorem exit_held (c : Dev nD) :
    iprop((dats 0 c).arrays ((dats 0 c).arrAt · cfg0.N)
        ∗ Pipeline.unscopedRestP (Ix := Unit) (Name := ℕ) (U := UR sig nD τ) (Lvl := ℕ) Pipeline.Prefetch.none spec0 c (V m c))
      ⊢ (StableHlo.held (c.tc : Thread nD τ) (Pipeline.ucRefs τ sig) (exitVal m dats c) : sProp 𝕄) := by
  rw [← Pipeline.unscopedBufs_held (Ix := Unit) (Name := ℕ) (U := UR sig nD τ) (Lvl := ℕ) c (exitVal m dats c),
    Pipeline.unscopedBufs_split₀ cfgs 0 winFacts₀0.arr_unscoped, Pipeline.unscopedRestP_none]
  refine sep_mono (arrBufs_of_arrays (dats 0 c) (hq0 c) (hq1 c) (hq2 c) (hq3 c) _ _ (exitVal_arr m dats hA c)) (Entails.of_eq ?_)
  unfold Pipeline.unscopedRest
  exact bigSep_congr fun b hb => by beta_reduce; rw [exitVal_rest m dats c b hb]

include hq0 hq1 hq2 hq3 hA in
/-- After the closing sum they are again the windows' arrays, untouched, and the bypassing buffers at `endVal`. -/
theorem end_held (c : Dev nD) :
    (StableHlo.held (c.tc : Thread nD τ) (Pipeline.ucRefs τ sig) (endVal m dats c) : sProp 𝕄)
      ⊢ iprop((dats 0 c).arrays ((dats 0 c).arrAt · cfg0.N)
        ∗ Pipeline.unscopedRestP (Ix := Unit) (Name := ℕ) (U := UR sig nD τ) (Lvl := ℕ) Pipeline.Prefetch.none spec0 c (fun b => endVal m dats c (Proc.devRef .tc b))) := by
  rw [← Pipeline.unscopedBufs_held (Ix := Unit) (Name := ℕ) (U := UR sig nD τ) (Lvl := ℕ) c (endVal m dats c),
    Pipeline.unscopedBufs_split₀ cfgs 0 winFacts₀0.arr_unscoped, Pipeline.unscopedRestP_none]
  exact sep_mono (arrays_of_arrBufs (dats 0 c) (hq0 c) (hq1 c) (hq2 c) (hq3 c) _ _ (endVal_arr m dats hA c)) .rfl

include hq0 hq1 hq2 hq3 hA in
set_option backward.isDefEq.respectTransparency.types false in
/-- The closing sum, from the region's exit. -/
theorem tail_run (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (fun b => endVal m dats c (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE 𝔻 (Variants.lift Variants.none) (c.tc : Thread nD τ) none) Set.univ (Pipeline.chain [StableHlo.seq hostOps1]) Q' := by
  show _ ⊢ wp frame (wpE 𝔻 (Variants.lift Variants.none) (c.tc : Thread nD τ) none) Set.univ
    (Pipeline.chain (([hostOps1] : List (List (HloOp τ sig (Elt F)))).map StableHlo.seq ++ [])) Q'
  iintro ⟨Hk, Hb, Ha, Hz⟩
  ihave H := (exit_held m dats hq0 hq1 hq2 hq3 hA c) $$ [Ha Hz]
  · isplitl [Ha]; · iexact Ha
    iexact Hz
  iapply (Pipeline.wp_seqs_then (fun q => Pipeline.Cfg.toPCfg (Val := Elt F) (cfgs q)) defs₀ Variants.none c (Pipeline.ucRefs τ sig) [] [hostOps1]
    tail_sub tail_fresh (exitVal m dats c)) $$ [Hb H]
  · isplitl [Hb]; · iexact Hb
    iexact H
  iintro Hb
  rw [Pipeline.chain_nil, wp_pure]
  imodintro
  iapply Hk
  icases Hb with ⟨-, H⟩
  iapply (end_held m dats hq0 hq1 hq2 hq3 hA c)
  iexact H

/-- The bypassing buffers, held at the end, are what the final memory holds. -/
theorem read_rest (c : Dev nD) (s' : Phys nD τ sig (Elt F)) (Wv : (b : Ref sig .tc) → Buf (Elt F) ((c.tc : Thread nD τ).loc b)) :
    iprop((∃ r, prngReg c r) ∗ Pipeline.unscopedRestP (Ix := Unit) (Name := ℕ) (U := UR sig nD τ) (Lvl := ℕ) Pipeline.Prefetch.none spec0 c Wv ∗ SI s')
      ⊢ |={Set.univ}=> iprop(⌜∀ b ∈ Pipeline.restRefs sig spec0, s'.mem.mem ((c.tc : Thread nD τ).loc b) = Wv b⌝ ∗ (SI s' : sProp 𝕄)) := by
  rw [Pipeline.unscopedRestP_none]; unfold Pipeline.unscopedRest
  iintro ⟨-, HU, HSI⟩
  imodintro
  iapply (pointsTo_read_all (Ix := Unit) (Name := ℕ) (U := UR sig nD τ) (Lvl := ℕ) (Pipeline.restRefs sig spec0) (fun b => (c.tc : Thread nD τ).loc b) Wv s')
  isplitl [HU] <;> iassumption

include hq0 hq1 hq2 hq3 hA in
set_option backward.isDefEq.respectTransparency.types false in
/-- THE RUN. For any values, from any memory with zero counters: every weakly fair execution of the program on the
    TensorCores terminates, and in every final state each window's array holds what the write-backs made of it and
    every other unscoped buffer what the closing sum leaves. -/
theorem run_shared
    (hbody : ∀ c, BodyObligationLoose (dats 0 c) (defs₀ (F := F)) Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (fun c b => endVal m dats c (Proc.devRef .tc b))) := by
  classical
  exact Pipeline.θ_run_region_pf_tail (fun q => Pipeline.Cfg.toPCfg (Val := Elt F) (cfgs q)) (fun q => (cfgs q).toPCfg_adm) dats () cellOf_inj (0 : Fin 1)
    winFacts₀0 (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_arrBufs (dats 0 c) (hq0 c) (hq1 c) (hq2 c) (hq3 c) (V m c) _ (fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => endVal m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq0 hq1 hq2 hq3 hA c Q')
    (QY := fun c s => ∀ b ∈ Pipeline.restRefs sig spec0, s.mem ((c.tc : Thread nD τ).loc b) = endVal m dats c (Proc.devRef .tc b))
    (hY := fun c s' => read_rest c s' _)
    (hQ := fun s h c => ⟨(h c).1, (h c).2.2⟩)

end Cert.Kernel.Hand

end
-- ==== Proof.Kernel.Cases.lean ====
/-
  The body of the one kernel region, case by case.

  A grid point t has row block t / 8 and column tile j = t % 8. The body zeroes its two row accumulators when
  j = 0, adds to them the row sums of e = exp((q kᵀ) · κ) over the current column tile (all entries into the
  total, those with equal cluster ids into the positive part), and when j = 7 writes 0 - log(pos / (tot + ε))
  to the output block. So there are three cases: j = 0 (accumulators start from zero, output untouched),
  0 < j < 7 (accumulators continue, output untouched), j = 7 (accumulators continue, output written).
  Each case is stated as a triple over whole buffers with every resulting value explicit.
-/
import proofs.«113577_j7507602833891_2_alg».proof.Proof.Gen.Kernel.Launch
import proofs.«113577_j7507602833891_2_alg».proof.Proof.Gen.Kernel.Skeleton
import proofs.«113577_j7507602833891_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-- The test of the first conditional: the column tile is the first one. -/
abbrev cond1 (i : grid0.Coords) : Prop :=
  (Scalar.cmpi .ne (Scalar.extui (Scalar.cmpi .eq (BitVec.ofNat 32 (i 1).val) 0#32)) 0#32) = 1#1

/-- The first conditional is taken exactly at the first column tile of each row block. -/
theorem hcond1 : ∀ t : Fin cfg0.N, cond1 (grid0.coords t) ↔ t.val % 8 = 0 :=
  (by decide +kernel : ∀ t : Fin grid0.N, cond1 (grid0.coords t) ↔ t.val % 8 = 0)

/-- The second conditional is taken exactly at the last column tile of each row block. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)

/-- The zero offset of a rank-two rectangle, however it is spelt. -/
theorem zero2 : (![0, 0] : Fin 2 → ℕ) = fun _ => 0 := by funext a; fin_cases a <;> rfl

/-- A load of a whole buffer through the full rectangle at offset zero reads its contents. -/
theorem load_whole {S : Shape} {e : EltTy} (m : Memref sig .tc .vmem S e) (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread]; exact View.ld_unit_zero hz inb X

/-- After a last store of the whole buffer through the full rectangle at offset zero, the buffer reads the
    stored value, whatever it held and whatever was stored before. -/
theorem read_store_whole {S : Shape} {e : EltTy} (v : View sig .tc .vmem S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero hz inb y⟩)).trans
    (View.canon_cons_unit_zero hz inb w L)

set_option maxHeartbeats 1000000 in
theorem body_first (c : Dev nD) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : cond1 i) (hc2 : ¬k0_cond2 i = 1#1)
    (x0 x1 : Vec F S1024x512 .bf16) (x2 : Vec F S1024x1 .i32) (x3 : Vec F S1x1024 .i32) (xi : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (k0_pay1 (k0_pay7 x0 x1 x2 x3 k0_pay3))
            ∗ owns (c : Thread nD τ) arg8 fullShare (k0_pay6 x0 x1 k0_pay4)) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    sl_unfold_run_names
    refine (read_store_whole _ _ zero2 _ _ _).trans ?_
    dsimp only
    rw [load_whole arg2 harg2 x0 zero2, load_whole arg3 harg3 x1 zero2, load_whole arg4 harg4 x2 zero2,
      load_whole arg5 harg5 x3 zero2, View.readCov_unit_zero arg7.view zero2]
  · iexists _; isplitr
    swap; · iexact H8
    ipureintro
    sl_unfold_run_names
    refine (read_store_whole _ _ zero2 _ _ _).trans ?_
    rw [load_whole arg2 harg2 x0 zero2, load_whole arg3 harg3 x1 zero2, View.readCov_unit_zero arg8.view zero2]

set_option maxHeartbeats 1000000 in
theorem body_mid (c : Dev nD) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : ¬k0_cond2 i = 1#1)
    (x0 x1 : Vec F S1024x512 .bf16) (x2 : Vec F S1024x1 .i32) (x3 : Vec F S1x1024 .i32) (p t xi : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ owns (c : Thread nD τ) arg7 fullShare p ∗ owns (c : Thread nD τ) arg8 fullShare t
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (k0_pay1 (k0_pay7 x0 x1 x2 x3 p))
            ∗ owns (c : Thread nD τ) arg8 fullShare (k0_pay6 x0 x1 t)) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    refine (read_store_whole _ _ zero2 _ _ _).trans ?_
    dsimp only
    rw [load_whole arg2 harg2 x0 zero2, load_whole arg3 harg3 x1 zero2, load_whole arg4 harg4 x2 zero2,
      load_whole arg5 harg5 x3 zero2, load_whole arg7 harg7 p zero2]
  · iexists _; isplitr
    swap; · iexact H8
    ipureintro
    refine (read_store_whole _ _ zero2 _ _ _).trans ?_
    rw [load_whole arg2 harg2 x0 zero2, load_whole arg3 harg3 x1 zero2, load_whole arg8 harg8 t zero2]

set_option maxHeartbeats 1000000 in
theorem body_last (c : Dev nD) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : k0_cond2 i = 1#1)
    (x0 x1 : Vec F S1024x512 .bf16) (x2 : Vec F S1024x1 .i32) (x3 : Vec F S1x1024 .i32) (p t : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare p ∗ owns (c : Thread nD τ) arg8 fullShare t
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k0_pay2 (k0_pay1 (k0_pay7 x0 x1 x2 x3 p)) (k0_pay6 x0 x1 t))
            ∗ owns (c : Thread nD τ) arg7 fullShare (k0_pay1 (k0_pay7 x0 x1 x2 x3 p))
            ∗ owns (c : Thread nD τ) arg8 fullShare (k0_pay6 x0 x1 t)) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg7.eq_unread hf7; obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_run_names
    refine (read_store_whole _ _ zero2 _ _ _).trans ?_
    rw [View.readCov_unit_zero arg7.view zero2, View.readCov_unit_zero arg8.view zero2]
    dsimp only
    rw [load_whole arg2 harg2 x0 zero2, load_whole arg3 harg3 x1 zero2, load_whole arg4 harg4 x2 zero2,
      load_whole arg5 harg5 x3 zero2, load_whole arg7 harg7 p zero2, load_whole arg8 harg8 t zero2]
  isplitl [H7]
  · iexists _; isplitr
    swap; · iexact H7
    ipureintro
    sl_unfold_run_names
    refine (read_store_whole _ _ zero2 _ _ _).trans ?_
    dsimp only
    rw [load_whole arg2 harg2 x0 zero2, load_whole arg3 harg3 x1 zero2, load_whole arg4 harg4 x2 zero2,
      load_whole arg5 harg5 x3 zero2, load_whole arg7 harg7 p zero2]
  · iexists _; isplitr
    swap; · iexact H8
    ipureintro
    sl_unfold_run_names
    refine (read_store_whole _ _ zero2 _ _ _).trans ?_
    rw [load_whole arg2 harg2 x0 zero2, load_whole arg3 harg3 x1 zero2, load_whole arg8 harg8 t zero2]

end Cert.Kernel.Hand
end
-- ==== Proof.Kernel.Data.lean ====
/-
  What the region's buffers hold, point by point.

  At grid point t (row block t / 8, column tile j = t % 8) the four inputs' staging buffers hold the blocks of
  their arrays that the index maps name: rows of the row block (features q and their ids), rows of the column
  tile (features k and their ids). The two row accumulators are defined by recursion on the point: at j = 0
  they restart from zero, otherwise they continue from the point before; each point adds the row sums of
  exp((q kᵀ) · κ) over its column tile — all entries into the total, the entries with equal ids into the
  positive part. The output block of a row block is 0 - log(pos / (tot + ε)) of the accumulators after its
  last column tile. Windows 0 and 1 read ONE array: each holds half of it.
-/
import proofs.«113577_j7507602833891_2_alg».proof.Proof.Kernel.Entry
import proofs.«113577_j7507602833891_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two row accumulators -/

/-- The accumulators' start at the first column tile: both zero. -/
def accZero : Vec F S1024x1 .f32 × Vec F S1024x1 .f32 := (k0_pay3, k0_pay4)

/-- One point's update: the positive part gains the row sums of the masked exponentials of the point's tile, the
    total those of all its exponentials. -/
def accStep (c : Dev nD) (t : Fin cfg0.N) (b : Vec F S1024x1 .f32 × Vec F S1024x1 .f32) : Vec F S1024x1 .f32 × Vec F S1024x1 .f32 :=
  (k0_pay1 (k0_pay7 (iblk m c 0 t) (iblk m c 1 t) (iblk m c 2 t) (iblk m c 3 t) b.1), k0_pay6 (iblk m c 0 t) (iblk m c 1 t) b.2)

/-- The accumulators (positive part, total) after point `n`: restarted at a first column tile, else continued from
    the point before. -/
def accs (c : Dev nD) : (n : ℕ) → n < cfg0.N → Vec F S1024x1 .f32 × Vec F S1024x1 .f32
  | 0, hn => accStep m c ⟨0, hn⟩ accZero
  | n + 1, hn => accStep m c ⟨n + 1, hn⟩ (if (n + 1) % 8 = 0 then accZero else accs c n (Nat.lt_of_succ_lt hn))

/-- The positive part after point `n`. -/
def accP (c : Dev nD) (n : ℕ) (hn : n < cfg0.N) : Vec F S1024x1 .f32 := (accs m c n hn).1
/-- The total after point `n`. -/
def accT (c : Dev nD) (n : ℕ) (hn : n < cfg0.N) : Vec F S1024x1 .f32 := (accs m c n hn).2

/-- At a first column tile the accumulators are one update of zero. -/
theorem accs_first (c : Dev nD) (t : Fin cfg0.N) (h0 : t.val % 8 = 0) :
    accs m c t.val t.isLt = accStep m c t accZero := by
  obtain ⟨n, hn⟩ := t
  cases n with
  | zero => rfl
  | succ n => exact (congrArg (accStep m c ⟨n + 1, hn⟩) (if_pos h0))

/-- At any other column tile they are one update of the point before's. -/
theorem accs_next (c : Dev nD) (t : Fin cfg0.N) (h0 : ¬t.val % 8 = 0) :
    accs m c t.val t.isLt = accStep m c t (accs m c (t.val - 1) (Nat.lt_of_le_of_lt (Nat.sub_le _ _) t.isLt)) := by
  obtain ⟨n, hn⟩ := t
  cases n with
  | zero => exact absurd (Nat.zero_mod _) h0
  | succ n => exact (congrArg (accStep m c ⟨n + 1, hn⟩) (if_neg h0))

/-- The positive part at a first column tile: the point's masked row sums added to zero. -/
theorem accP_first (c : Dev nD) (t : Fin cfg0.N) (h0 : t.val % 8 = 0) :
    accP m c t.val t.isLt = k0_pay1 (k0_pay7 (iblk m c 0 t) (iblk m c 1 t) (iblk m c 2 t) (iblk m c 3 t) k0_pay3) := by
  unfold accP; rw [accs_first m c t h0]; rfl

/-- The total at a first column tile: the point's row sums added to zero. -/
theorem accT_first (c : Dev nD) (t : Fin cfg0.N) (h0 : t.val % 8 = 0) :
    accT m c t.val t.isLt = k0_pay6 (iblk m c 0 t) (iblk m c 1 t) k0_pay4 := by
  unfold accT; rw [accs_first m c t h0]; rfl

/-- The positive part at a later column tile: the point's masked row sums added to the point before's. -/
theorem accP_next (c : Dev nD) (t : Fin cfg0.N) (h0 : ¬t.val % 8 = 0) :
    accP m c t.val t.isLt = k0_pay1 (k0_pay7 (iblk m c 0 t) (iblk m c 1 t) (iblk m c 2 t) (iblk m c 3 t)
      (accP m c (t.val - 1) (Nat.lt_of_le_of_lt (Nat.sub_le _ _) t.isLt))) := by
  unfold accP; rw [accs_next m c t h0]; rfl

/-- The total at a later column tile: the point's row sums added to the point before's. -/
theorem accT_next (c : Dev nD) (t : Fin cfg0.N) (h0 : ¬t.val % 8 = 0) :
    accT m c t.val t.isLt = k0_pay6 (iblk m c 0 t) (iblk m c 1 t)
      (accT m c (t.val - 1) (Nat.lt_of_le_of_lt (Nat.sub_le _ _) t.isLt)) := by
  unfold accT; rw [accs_next m c t h0]; rfl

/-! ## The invariant between points -/

/-- The two scratch operands: whole scoped buffers of the kernel's own. -/
abbrev scP : Memref sig .tc .vmem S1024x1 .f32 := Memref.whole cc0_scratch0
abbrev scT : Memref sig .tc .vmem S1024x1 .f32 := Memref.whole cc0_scratch1

/-- What the launch hands the region: both scratch buffers at some contents, the generator register at some state. -/
theorem PhiA0_eq (c : Dev nD) :
    (Pipeline.ΦA spec0 c : sProp 𝕄)
      = iprop(iprop((∃ d, owns (c : Thread nD τ) scP fullShare d) ∗ (∃ d, owns (c : Thread nD τ) scT fullShare d)) ∗ (∃ r, prngReg c r)) := by
  unfold Pipeline.ΦA; rw [scopedRest0_eq]; simp only [scP, scT, owns_whole]; try rfl

/-- The invariant before position `n`: before the first point what the launch hands over; afterwards the two
    scratch buffers at the accumulators the point before left. -/
def PhiS (c : Dev nD) : (n : ℕ) → n ≤ cfg0.N → sProp 𝕄
  | 0, _ => Pipeline.ΦA spec0 c
  | n + 1, hn => iprop(iprop(owns (c : Thread nD τ) scP fullShare (accP m c n hn) ∗ owns (c : Thread nD τ) scT fullShare (accT m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (accP m c n hn) ∗ owns (c : Thread nD τ) scT fullShare (accT m c n hn)) ∗ (∃ r, prngReg c r)) := rfl

theorem PhiS_pos (c : Dev nD) (n : ℕ) (h : n ≤ cfg0.N) (hz : n ≠ 0) :
    PhiS m c n h = iprop(iprop(owns (c : Thread nD τ) scP fullShare (accP m c (n - 1) (by omega)) ∗ owns (c : Thread nD τ) scT fullShare (accT m c (n - 1) (by omega))) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at the loss of the accumulators (read only where the
    block is written back, at a last column tile); the invariant `PhiS`; nothing owed; the shared array held in
    halves by its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (accP m c t.val t.isLt) (accT m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- Nothing is owed at any point. -/
theorem owed_eq (c : Dev nD) (t : Fin (cfg0.N + 1)) : (dats m 0 c).owed t = 0 := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay2 (accP m c t.val t.isLt) (accT m c t.val t.isLt) := by dsimp only [dats]

/-- The shares: the shared array's two windows hold its two halves. -/
theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]
theorem q4 (c : Dev nD) : (dats m 0 c).q 4 = fullShare := by dsimp only [dats]

end Cert.Kernel.Hand

end
-- ==== Proof.Kernel.Body.lean ====
/-
  The body obligation of the one kernel region.

  At every grid point the four inputs' staging buffers hold their blocks (fetched there or carried over from the
  point before, whose block index was the same). By the column tile j = t % 8 the point is in one of three cases;
  in each the body's triple applies: the accumulators go from the invariant's values (anything at the very first
  point, zero-restarted at j = 0) to the next ones, the output's buffer is handed back untouched where the block
  is not written back (j < 7) and holds the loss of the finished accumulators where it is (j = 7).
-/
import proofs.«113577_j7507602833891_2_alg».proof.Proof.Kernel.Cases
import proofs.«113577_j7507602833891_2_alg».proof.Proof.Kernel.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input's buffer: its block -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Before the last column tile the output is idle: nothing is stored into its buffer, -/
theorem idleAt0_4 : ∀ t : Fin cfg0.N, ¬k0_cond2 (grid0.coords t) = 1#1 → cfg0.idle 4 (grid0.coords t) = true := by decide +kernel
/-- and its block is not written back. -/
theorem noFlush0_4 : ∀ t : Fin cfg0.N, ¬k0_cond2 (grid0.coords t) = 1#1 → (cfg0.win 4).flush t = false := by decide +kernel
/-- At the last column tile the output is live. -/
theorem liveAt0_4 : ∀ t : Fin cfg0.N, k0_cond2 (grid0.coords t) = 1#1 → cfg0.idle 4 (grid0.coords t) = false := by decide +kernel

/-! ## The body at a generic point -/

/-- Each window's current staging memref at point `t`, as the pipeline passes it to the body. -/
abbrev ms0_0 (t : Fin cfg0.N) : Memref sig .tc .vmem S1024x512 .bf16 := win0_0.stage (cfg0.slots t 0)
abbrev ms0_1 (t : Fin cfg0.N) : Memref sig .tc .vmem S1024x512 .bf16 := win0_1.stage (cfg0.slots t 1)
abbrev ms0_2 (t : Fin cfg0.N) : Memref sig .tc .vmem S1024x1 .i32 := win0_2.stage (cfg0.slots t 2)
abbrev ms0_3 (t : Fin cfg0.N) : Memref sig .tc .vmem S1x1024 .i32 := win0_3.stage (cfg0.slots t 3)
abbrev ms0_4 (t : Fin cfg0.N) : Memref sig .tc .vmem S1024x1 .f32 := win0_4.stage (cfg0.slots t 4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the column tile says which case the point is
    in; the invariant hands the body the accumulators the point before left (anything at the very first point)
    and takes them back one update later; the output's buffer comes back untouched before the last column tile
    and holds the row block's loss at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · have hc1 : cond1 (grid0.coords t) := (hcond1 t).mpr h0
    have hc2 : ¬k0_cond2 (grid0.coords t) = 1#1 := fun h => by have := (hcond2 t).mp h; omega
    rw [Dat.leavesExact_idle (dats m 0 c) 4 t (idleAt0_4 t hc2) (noFlush0_4 t hc2)]
    rw [accP_first m c t h0, accT_first m c t h0]
    by_cases hz : t.val = 0
    · rw [PhiS_castSucc m c t, PhiS_zero m c _ _ hz, PhiA0_eq]
      iintro ⟨⟨⟨HP, HT⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ hc1 hc2 (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ hc1 hc2 (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HP]; · iexists _; iexact HP
      isplitl [HT]; · iexists _; iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexists _; iexact H4
  · have hc1 : ¬cond1 (grid0.coords t) := fun h => h0 ((hcond1 t).mp h)
    have hz : t.val ≠ 0 := fun e => h0 (by rw [e])
    rw [accP_next m c t h0, accT_next m c t h0]
    rw [PhiS_castSucc m c t, PhiS_pos m c _ _ hz]
    by_cases h7 : t.val % 8 = 7
    · have hc2 : k0_cond2 (grid0.coords t) = 1#1 := (hcond2 t).mpr h7
      rw [show (dats m 0 c).leavesExact 4 t = owns (c : Thread nD τ) (ms0_4 t) fullShare ((dats m 0 c).after 4 t) from by
        unfold Dat.leavesExact; rw [liveAt0_4 t hc2], after0_4]
      rw [accP_next m c t h0, accT_next m c t h0]
      iintro ⟨⟨⟨HP, HT⟩, Hg⟩, Ho, ⟨%d0, H0⟩, ⟨%d1, H1⟩, ⟨%d2, H2⟩, ⟨%d3, H3⟩, ⟨%d4, H4⟩⟩
      iapply (body_last c (grid0.coords t) _ _ _ _ _ _ _ _ _ _ _ _ _ _ hc1 hc2 (iblk m c 0 t) (iblk m c 1 t) (iblk m c 2 t) (iblk m c 3 t)
        (accP m c (t.val - 1) (Nat.lt_of_le_of_lt (Nat.sub_le _ _) t.isLt)) (accT m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HP]; · iexact HP
      isplitl [HT]; · iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexact H4
    · have hc2 : ¬k0_cond2 (grid0.coords t) = 1#1 := fun h => h7 ((hcond2 t).mp h)
      rw [Dat.leavesExact_idle (dats m 0 c) 4 t (idleAt0_4 t hc2) (noFlush0_4 t hc2)]
      iintro ⟨⟨⟨HP, HT⟩, Hg⟩, Ho, ⟨%d0, H0⟩, ⟨%d1, H1⟩, ⟨%d2, H2⟩, ⟨%d3, H3⟩, ⟨%d4, H4⟩⟩
      iapply (body_mid c (grid0.coords t) _ _ _ _ _ _ _ _ _ _ _ _ _ _ hc1 hc2 (iblk m c 0 t) (iblk m c 1 t) (iblk m c 2 t) (iblk m c 3 t)
        (accP m c (t.val - 1) (Nat.lt_of_le_of_lt (Nat.sub_le _ _) t.isLt)) (accT m c (t.val - 1) (Nat.lt_of_le_of_lt (Nat.sub_le _ _) t.isLt))
        ((dats m 0 c).before 4 t d4) Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulators' values are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HP, HT⟩, Hg⟩
  isplitl [HP HT]
  · isplitl [HP]; · iexists _; iexact HP
    iexists _; iexact HT
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.Kernel.Frames.lean ====
import proofs.«113577_j7507602833891_2_alg».proof.Proof.Kernel.SharedLaunch
import proofs.«113577_j7507602833891_2_alg».proof.Proof.Kernel.Body
import proofs.«113577_j7507602833891_2_alg».proof.Defs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-!
  The run of the program with the proof data of its pipeline, and what it leaves in the buffers the claims speak of:
  the two argument arrays are written by no line and staged by no window, so they end as they began; the result is
  the closing sum of the per-row losses the write-backs left.
-/

/-- No host line writes the features. -/
theorem arg0_kept (op : HloOp τ sig (Elt F)) (hop : op ∈ List.flatten [hostOps0, hostOps0_1] ∨ op ∈ List.flatten [hostOps1 (F := F)]) :
    Proc.devRef .tc main_arg0 ∉ op.writes := by
  simp only [List.flatten_cons, List.flatten_nil, List.append_nil, hostOps0, hostOps0_1, hostOps1, List.cons_append, List.nil_append,
    List.mem_cons, List.mem_nil_iff, or_false] at hop
  rcases hop with (rfl | rfl | rfl | rfl | rfl | rfl | rfl | rfl | rfl | rfl | rfl | rfl | rfl) | (rfl | rfl)
  all_goals simp only [StableHlo.TRef.binary, StableHlo.TRef.unary, StableHlo.TRef.nullary, StableHlo.nullary_writes, StableHlo.unary_writes, StableHlo.binary_writes, StableHlo.reshape_writes, Finset.mem_singleton] <;> exact StableHlo.devRef_ne_of_ne (by decide)

/-- Nor the cluster ids. -/
theorem arg1_kept (op : HloOp τ sig (Elt F)) (hop : op ∈ List.flatten [hostOps0, hostOps0_1] ∨ op ∈ List.flatten [hostOps1 (F := F)]) :
    Proc.devRef .tc main_arg1 ∉ op.writes := by
  simp only [List.flatten_cons, List.flatten_nil, List.append_nil, hostOps0, hostOps0_1, hostOps1, List.cons_append, List.nil_append,
    List.mem_cons, List.mem_nil_iff, or_false] at hop
  rcases hop with (rfl | rfl | rfl | rfl | rfl | rfl | rfl | rfl | rfl | rfl | rfl | rfl | rfl) | (rfl | rfl)
  all_goals simp only [StableHlo.TRef.binary, StableHlo.TRef.unary, StableHlo.TRef.nullary, StableHlo.nullary_writes, StableHlo.unary_writes, StableHlo.binary_writes, StableHlo.reshape_writes, Finset.mem_singleton] <;> exact StableHlo.devRef_ne_of_ne (by decide)

variable (dats : (p : Fin 1) → (c : Dev nD) → Dat τ (Elt F) Unit ℕ (UR sig nD τ) ℕ (cfgs p) c)

theorem endVal_arg0 (c : Dev nD) : endVal m dats c (Proc.devRef .tc main_arg0) = m ((c.tc : Thread nD τ).loc main_arg0) := by
  unfold endVal
  rw [StableHlo.after_of_forall_not_mem _ _ fun op hop => arg0_kept op (.inr hop)]
  unfold exitVal
  rw [Function.update_of_ne (StableHlo.devRef_ne_of_ne (by decide))]
  exact StableHlo.after_of_forall_not_mem _ _ fun op hop => arg0_kept op (.inl hop)

theorem endVal_arg1 (c : Dev nD) : endVal m dats c (Proc.devRef .tc main_arg1) = m ((c.tc : Thread nD τ).loc main_arg1) := by
  unfold endVal
  rw [StableHlo.after_of_forall_not_mem _ _ fun op hop => arg1_kept op (.inr hop)]
  unfold exitVal
  rw [Function.update_of_ne (StableHlo.devRef_ne_of_ne (by decide))]
  exact StableHlo.after_of_forall_not_mem _ _ fun op hop => arg1_kept op (.inl hop)

/-- The run with the pipeline's proof data. -/
theorem run_main : θ_run defs (onTc (τ := τ) (main (F := F))) (s₀ m ρ)
    (Pipeline.FramePost cfgs (Hand.dats m) 0 (fun c b => endVal m (Hand.dats m) c (Proc.devRef .tc b))) :=
  run_shared m ρ (Hand.dats m) (fun c => q0 m c) (fun c => q1 m c) (fun c => q2 m c) (fun c => q3 m c) (fun c w => A_eq m c w)
    (fun c => (body_obligation m c).loose) (fun c t => owed_eq m c t) (fun c => hin m c) (fun c => hout m c)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (endVal_arg0 m (Hand.dats m) c),
     ((h c).2 main_arg1 (Pipeline.mem_restRefs_of main_arg1 rfl (by decide))).trans (endVal_arg1 m (Hand.dats m) c)⟩) (run_main m ρ)

end Cert.Kernel.Hand

end
-- ==== Proof.Entry.lean ====
/-
  The kernel program's host lines around its one pallas_call. Before the region the host squares and row-sums the
  features, takes the square root, clamps it below by 1e-12, divides each row by its norm, rounds to bf16 and lays the
  cluster ids out as a column and as a row; after it the host sums the per-row losses. This module names the contents
  of every TensorCore buffer as the region finds it (the launch contents pushed through the lines before the region)
  and shows that the program is those lines, the region, and the one closing sum.
-/
import proofs.«113577_j7507602833891_2_alg».proof.Proof.Gen.KernelIdeal.Launch
import proofs.«113577_j7507602833891_2_alg».proof.Proof.Gen.KernelIdeal.Points
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- Core `c`'s TensorCore buffers when the region is entered: the launch contents after the norm's five lines and
    the eight lines that normalise, round and reshape. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the closing sum: holding the unscoped buffers at the
    launch contents it reduces to the region, continued by the sum, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

end Cert.KernelIdeal.Hand

end
-- ==== Proof.SharedArray.lean ====
import proofs.«113577_j7507602833891_2_alg».proof.Proof.Entry

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-!
  The row block and the column block of the similarity tile are both cut from ONE array, the normalised features.
  The launch hands the pipeline each DISTINCT array once, whole; the pipeline's proof data holds one points-to per
  WINDOW. The two agree when the two windows on the features array each hold half of it: a points-to at the full
  share is the two at its halves, at the same contents.
-/

/-- The distinct arrays behind the five windows, one by one: the normalised features, the ids as a column, the ids
    as a row, the per-row losses. -/
theorem arrBufs_listed (c : Dev nD) (Vv : (b : Ref sig .tc) → Buf (Elt F) ((c : Thread nD τ).loc b)) :
    (Pipeline.arrBufs spec0 c Vv : sProp 𝕄)
      = iprop((((c : Thread nD τ).loc main_v5) ↦{fullShare} Vv main_v5) ∗ (((c : Thread nD τ).loc main_v6) ↦{fullShare} Vv main_v6)
          ∗ (((c : Thread nD τ).loc main_v7) ↦{fullShare} Vv main_v7) ∗ (((c : Thread nD τ).loc main_v8) ↦{fullShare} Vv main_v8)) := by
  unfold Pipeline.arrBufs
  exact bigSep_eq_bigSepL_of_eq [main_v5, main_v6, main_v7, main_v8] (by decide) (by decide) _

variable {c : Dev nD} (dat : Dat τ (Elt F) Unit ℕ (UR sig nD τ) ℕ cfg0 c)

/-- The proof data's arrays, window by window, at the shares the windows hold: the two windows on the features
    array a half each, every other window its whole array. -/
theorem arrays_listed (hq0 : dat.q 0 = fullShare.left) (hq1 : dat.q 1 = fullShare.right) (hq2 : dat.q 2 = fullShare) (hq3 : dat.q 3 = fullShare)
    (Fw : (w : Fin cfg0.W) → Buf (Elt F) ((cfg0.win w).arr.view.loc (c : Thread nD τ))) :
    (dat.arrays Fw : sProp 𝕄)
      = iprop((((c : Thread nD τ).loc main_v5) ↦{fullShare.left} Fw 0) ∗ (((c : Thread nD τ).loc main_v5) ↦{fullShare.right} Fw 1)
          ∗ (((c : Thread nD τ).loc main_v6) ↦{fullShare} Fw 2) ∗ (((c : Thread nD τ).loc main_v7) ↦{fullShare} Fw 3)
          ∗ (((c : Thread nD τ).loc main_v8) ↦{fullShare} Fw 4)) := by
  unfold Dat.arrays
  rw [bigSep_W0]
  rw [show dat.share 0 = fullShare.left from hq0, show dat.share 1 = fullShare.right from hq1,
    show dat.share 2 = fullShare from hq2, show dat.share 3 = fullShare from hq3, show dat.share 4 = fullShare from rfl]
  rw [(arr_whole0 0).set_eq_univ, (arr_whole0 2).set_eq_univ, (arr_whole0 3).set_eq_univ, (arr_whole0 4).set_eq_univ]

/-- From the distinct arrays, each whole, to the windows' arrays: the features array splits into its halves. -/
theorem arrays_of_arrBufs (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊢ dat.arrays Fw := by
  rw [arrBufs_listed, arrays_listed dat hq0 hq1 hq2 hq3, hF 0, hF 1, hF 2, hF 3, hF 4]
  iintro ⟨H5, H6, H7, H8⟩
  ihave H := (pointsTo_share (PosShare.mem_left_op_right fullShare)).1 $$ H5
  icases H with ⟨Hl, Hr⟩
  isplitl [Hl]; · iexact Hl
  isplitl [Hr]; · iexact Hr
  isplitl [H6]; · iexact H6
  isplitl [H7]; · iexact H7
  iexact H8

/-- And back: the two halves of the features array, at the same contents, are the whole. -/
theorem arrBufs_of_arrays (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (dat.arrays Fw : sProp 𝕄) ⊢ Pipeline.arrBufs spec0 c Vv := by
  rw [arrBufs_listed, arrays_listed dat hq0 hq1 hq2 hq3, hF 0, hF 1, hF 2, hF 3, hF 4]
  iintro ⟨Hl, Hr, H6, H7, H8⟩
  isplitl [Hl Hr]
  · iapply (pointsTo_share (PosShare.mem_left_op_right fullShare)).2
    isplitl [Hl]; · iexact Hl
    iexact Hr
  isplitl [H6]; · iexact H6
  isplitl [H7]; · iexact H7
  iexact H8

end Cert.KernelIdeal.Hand

end
-- ==== Proof.SharedLaunch.lean ====
import proofs.«113577_j7507602833891_2_alg».proof.Proof.SharedArray

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-!
  The run of the whole program from any proof data for its one pipeline in which the two windows on the features
  array hold half of it each. Two windows read one array, so neither can own it whole: it is split into halves at the
  region's entry, the halves are put together again at its exit (an input array is never written, so both windows end
  at the entry contents), the closing sum runs on all unscoped buffers, and the array is split once more so that every
  window ends holding its own share.
-/

/-- What core `c`'s buffers hold when the region is left: the per-row losses at what the write-backs made of them,
    every other buffer at what the region found. -/
def exitVal (c : Dev nD) : Valuation τ sig (Elt F) :=
  Function.update (V0 m c) (Proc.devRef .tc main_v8) ((dats 0 c).arrAt 4 cfg0.N)

/-- And after the closing sum. -/
def endVal (c : Dev nD) : Valuation τ sig (Elt F) := StableHlo.after (List.flatten [hostOps1]) (exitVal m dats c)

/-- An input array is never written: at the region's exit every window's array holds what `exitVal` says. -/
theorem exitVal_arr (hA : ∀ c w, (dats 0 c).A w = V m c (Pipeline.arrRef spec0 w)) (c : Dev nD) (w : Fin cfg0.W) :
    (dats 0 c).arrAt w cfg0.N = exitVal m dats c (Proc.devRef .tc (Pipeline.arrRef spec0 w)) := by
  unfold exitVal
  match w with
  | ⟨0, _⟩ => exact (((dats 0 c).arrAt_in 0 rfl _).trans (hA c 0)).trans (Function.update_of_ne (StableHlo.devRef_ne_of_ne (by decide)) _ _).symm
  | ⟨1, _⟩ => exact (((dats 0 c).arrAt_in 1 rfl _).trans (hA c 1)).trans (Function.update_of_ne (StableHlo.devRef_ne_of_ne (by decide)) _ _).symm
  | ⟨2, _⟩ => exact (((dats 0 c).arrAt_in 2 rfl _).trans (hA c 2)).trans (Function.update_of_ne (StableHlo.devRef_ne_of_ne (by decide)) _ _).symm
  | ⟨3, _⟩ => exact (((dats 0 c).arrAt_in 3 rfl _).trans (hA c 3)).trans (Function.update_of_ne (StableHlo.devRef_ne_of_ne (by decide)) _ _).symm
  | ⟨4, _⟩ => exact (Function.update_self (β := fun b : DevRef τ sig => BufTy.Contents (Elt F) b.ty) (Proc.devRef .tc main_v8) _ (V0 m c)).symm

/-- The closing sum writes no array of the pipeline. -/
theorem tail_keeps (w : Fin cfg0.W) : ∀ op ∈ (List.flatten [hostOps1] : List (HloOp τ sig (Elt F))),
    Proc.devRef .tc (Pipeline.arrRef spec0 w) ∉ op.writes := by
  intro op hop
  simp only [List.flatten_cons, List.flatten_nil, List.append_nil, hostOps1, List.mem_cons, List.mem_nil_iff, or_false] at hop
  rcases hop with rfl | rfl
  all_goals fin_cases w <;> simp only [StableHlo.nullary_writes, StableHlo.binary_writes, Finset.mem_singleton] <;> exact StableHlo.devRef_ne_of_ne (by decide)

theorem endVal_arr (hA : ∀ c w, (dats 0 c).A w = V m c (Pipeline.arrRef spec0 w)) (c : Dev nD) (w : Fin cfg0.W) :
    (dats 0 c).arrAt w cfg0.N = endVal m dats c (Proc.devRef .tc (Pipeline.arrRef spec0 w)) := by
  unfold endVal
  rw [StableHlo.after_of_forall_not_mem _ _ (tail_keeps w)]
  exact exitVal_arr m dats hA c w

/-- A buffer that bypasses the region is none of the arrays: it leaves the region as it entered. -/
theorem exitVal_rest (c : Dev nD) (b : Ref sig .tc) (hb : b ∈ Pipeline.restRefs sig spec0) :
    exitVal m dats c (Proc.devRef .tc b) = V m c b := by
  unfold exitVal
  refine Function.update_of_ne (fun e => ?_) _ _
  have : b = main_v8 := Proc.devRef_injective _ e
  subst this
  exact (Finset.mem_sdiff.mp hb).2 (Finset.mem_image.mpr ⟨4, Finset.mem_univ _, rfl⟩)

local notation "𝔻" => Pipeline.defs (fun q => Pipeline.Cfg.toPCfg (Val := Elt F) (cfgs q)) (defs₀ (F := F))

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

variable (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (hA : ∀ c w, (dats 0 c).A w = V m c (Pipeline.arrRef spec0 w))

include hq0 hq1 hq2 hq3 hA in
/-- At the region's exit the windows' arrays and the bypassing buffers are all the unscoped buffers, at `exitVal`. -/
theorem exit_held (c : Dev nD) :
    iprop((dats 0 c).arrays ((dats 0 c).arrAt · cfg0.N)
        ∗ Pipeline.unscopedRestP (Ix := Unit) (Name := ℕ) (U := UR sig nD τ) (Lvl := ℕ) Pipeline.Prefetch.none spec0 c (V m c))
      ⊢ (StableHlo.held (c.tc : Thread nD τ) (Pipeline.ucRefs τ sig) (exitVal m dats c) : sProp 𝕄) := by
  rw [← Pipeline.unscopedBufs_held (Ix := Unit) (Name := ℕ) (U := UR sig nD τ) (Lvl := ℕ) c (exitVal m dats c),
    Pipeline.unscopedBufs_split₀ cfgs 0 winFacts₀0.arr_unscoped, Pipeline.unscopedRestP_none]
  refine sep_mono (arrBufs_of_arrays (dats 0 c) (hq0 c) (hq1 c) (hq2 c) (hq3 c) _ _ (exitVal_arr m dats hA c)) (Entails.of_eq ?_)
  unfold Pipeline.unscopedRest
  exact bigSep_congr fun b hb => by beta_reduce; rw [exitVal_rest m dats c b hb]

include hq0 hq1 hq2 hq3 hA in
/-- After the closing sum they are again the windows' arrays, untouched, and the bypassing buffers at `endVal`. -/
theorem end_held (c : Dev nD) :
    (StableHlo.held (c.tc : Thread nD τ) (Pipeline.ucRefs τ sig) (endVal m dats c) : sProp 𝕄)
      ⊢ iprop((dats 0 c).arrays ((dats 0 c).arrAt · cfg0.N)
        ∗ Pipeline.unscopedRestP (Ix := Unit) (Name := ℕ) (U := UR sig nD τ) (Lvl := ℕ) Pipeline.Prefetch.none spec0 c (fun b => endVal m dats c (Proc.devRef .tc b))) := by
  rw [← Pipeline.unscopedBufs_held (Ix := Unit) (Name := ℕ) (U := UR sig nD τ) (Lvl := ℕ) c (endVal m dats c),
    Pipeline.unscopedBufs_split₀ cfgs 0 winFacts₀0.arr_unscoped, Pipeline.unscopedRestP_none]
  exact sep_mono (arrays_of_arrBufs (dats 0 c) (hq0 c) (hq1 c) (hq2 c) (hq3 c) _ _ (endVal_arr m dats hA c)) .rfl

include hq0 hq1 hq2 hq3 hA in
set_option backward.isDefEq.respectTransparency.types false in
/-- The closing sum, from the region's exit. -/
theorem tail_run (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (fun b => endVal m dats c (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE 𝔻 (Variants.lift Variants.none) (c.tc : Thread nD τ) none) Set.univ (Pipeline.chain [StableHlo.seq hostOps1]) Q' := by
  show _ ⊢ wp frame (wpE 𝔻 (Variants.lift Variants.none) (c.tc : Thread nD τ) none) Set.univ
    (Pipeline.chain (([hostOps1] : List (List (HloOp τ sig (Elt F)))).map StableHlo.seq ++ [])) Q'
  iintro ⟨Hk, Hb, Ha, Hz⟩
  ihave H := (exit_held m dats hq0 hq1 hq2 hq3 hA c) $$ [Ha Hz]
  · isplitl [Ha]; · iexact Ha
    iexact Hz
  iapply (Pipeline.wp_seqs_then (fun q => Pipeline.Cfg.toPCfg (Val := Elt F) (cfgs q)) defs₀ Variants.none c (Pipeline.ucRefs τ sig) [] [hostOps1]
    tail_sub tail_fresh (exitVal m dats c)) $$ [Hb H]
  · isplitl [Hb]; · iexact Hb
    iexact H
  iintro Hb
  rw [Pipeline.chain_nil, wp_pure]
  imodintro
  iapply Hk
  icases Hb with ⟨-, H⟩
  iapply (end_held m dats hq0 hq1 hq2 hq3 hA c)
  iexact H

/-- The bypassing buffers, held at the end, are what the final memory holds. -/
theorem read_rest (c : Dev nD) (s' : Phys nD τ sig (Elt F)) (Wv : (b : Ref sig .tc) → Buf (Elt F) ((c.tc : Thread nD τ).loc b)) :
    iprop((∃ r, prngReg c r) ∗ Pipeline.unscopedRestP (Ix := Unit) (Name := ℕ) (U := UR sig nD τ) (Lvl := ℕ) Pipeline.Prefetch.none spec0 c Wv ∗ SI s')
      ⊢ |={Set.univ}=> iprop(⌜∀ b ∈ Pipeline.restRefs sig spec0, s'.mem.mem ((c.tc : Thread nD τ).loc b) = Wv b⌝ ∗ (SI s' : sProp 𝕄)) := by
  rw [Pipeline.unscopedRestP_none]; unfold Pipeline.unscopedRest
  iintro ⟨-, HU, HSI⟩
  imodintro
  iapply (pointsTo_read_all (Ix := Unit) (Name := ℕ) (U := UR sig nD τ) (Lvl := ℕ) (Pipeline.restRefs sig spec0) (fun b => (c.tc : Thread nD τ).loc b) Wv s')
  isplitl [HU] <;> iassumption

include hq0 hq1 hq2 hq3 hA in
set_option backward.isDefEq.respectTransparency.types false in
/-- THE RUN. For any values, from any memory with zero counters: every weakly fair execution of the program on the
    TensorCores terminates, and in every final state each window's array holds what the write-backs made of it and
    every other unscoped buffer what the closing sum leaves. -/
theorem run_shared
    (hbody : ∀ c, BodyObligationLoose (dats 0 c) (defs₀ (F := F)) Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (fun c b => endVal m dats c (Proc.devRef .tc b))) := by
  classical
  exact Pipeline.θ_run_region_pf_tail (fun q => Pipeline.Cfg.toPCfg (Val := Elt F) (cfgs q)) (fun q => (cfgs q).toPCfg_adm) dats () cellOf_inj (0 : Fin 1)
    winFacts₀0 (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_arrBufs (dats 0 c) (hq0 c) (hq1 c) (hq2 c) (hq3 c) (V m c) _ (fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => endVal m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq0 hq1 hq2 hq3 hA c Q')
    (QY := fun c s => ∀ b ∈ Pipeline.restRefs sig spec0, s.mem ((c.tc : Thread nD τ).loc b) = endVal m dats c (Proc.devRef .tc b))
    (hY := fun c s' => read_rest c s' _)
    (hQ := fun s h c => ⟨(h c).1, (h c).2.2⟩)

end Cert.KernelIdeal.Hand

end
-- ==== Proof.KernelIdeal.Cases.lean ====
/-
  The body of the one kernel region, case by case.

  A grid point t has row block t / 8 and column tile j = t % 8. The body zeroes its two row accumulators when
  j = 0, adds to them the row sums of e = exp((q kᵀ) · κ) over the current column tile (all entries into the
  total, those with equal cluster ids into the positive part), and when j = 7 writes 0 - log(pos / (tot + ε))
  to the output block. So there are three cases: j = 0 (accumulators start from zero, output untouched),
  0 < j < 7 (accumulators continue, output untouched), j = 7 (accumulators continue, output written).
  Each case is stated as a triple over whole buffers with every resulting value explicit.
-/
import proofs.«113577_j7507602833891_2_alg».proof.Proof.Gen.KernelIdeal.Launch
import proofs.«113577_j7507602833891_2_alg».proof.Proof.Gen.KernelIdeal.Skeleton
import proofs.«113577_j7507602833891_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

local notation "𝕄" => MT nD τ sig Unit (Elt F) ℕ (UR sig nD τ) ℕ

/-- The test of the first conditional: the column tile is the first one. -/
abbrev cond1 (i : grid0.Coords) : Prop :=
  (Scalar.cmpi .ne (Scalar.extui (Scalar.cmpi .eq (BitVec.ofNat 32 (i 1).val) 0#32)) 0#32) = 1#1

/-- The first conditional is taken exactly at the first column tile of each row block. -/
theorem hcond1 : ∀ t : Fin cfg0.N, cond1 (grid0.coords t) ↔ t.val % 8 = 0 :=
  (by decide +kernel : ∀ t : Fin grid0.N, cond1 (grid0.coords t) ↔ t.val % 8 = 0)

/-- The second conditional is taken exactly at the last column tile of each row block. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)

/-- The zero offset of a rank-two rectangle, however it is spelt. -/
theorem zero2 : (![0, 0] : Fin 2 → ℕ) = fun _ => 0 := by funext a; fin_cases a <;> rfl

/-- A load of a whole buffer through the full rectangle at offset zero reads its contents. -/
theorem load_whole {S : Shape} {e : EltTy} (m : Memref sig .tc .vmem S e) (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread]; exact View.ld_unit_zero hz inb X

/-- After a last store of the whole buffer through the full rectangle at offset zero, the buffer reads the
    stored value, whatever it held and whatever was stored before. -/
theorem read_store_whole {S : Shape} {e : EltTy} (v : View sig .tc .vmem S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero hz inb y⟩)).trans
    (View.canon_cons_unit_zero hz inb w L)

set_option maxHeartbeats 1000000 in
theorem body_first (c : Dev nD) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : cond1 i) (hc2 : ¬k0_cond2 i = 1#1)
    (x0 x1 : Vec F S1024x512 .bf16) (x2 : Vec F S1024x1 .i32) (x3 : Vec F S1x1024 .i32) (xi : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (k0_pay1 (k0_pay7 x0 x1 x2 x3 k0_pay3))
            ∗ owns (c : Thread nD τ) arg8 fullShare (k0_pay6 x0 x1 k0_pay4)) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    sl_unfold_run_names
    refine (read_store_whole _ _ zero2 _ _ _).trans ?_
    dsimp only
    rw [load_whole arg2 harg2 x0 zero2, load_whole arg3 harg3 x1 zero2, load_whole arg4 harg4 x2 zero2,
      load_whole arg5 harg5 x3 zero2, View.readCov_unit_zero arg7.view zero2]
  · iexists _; isplitr
    swap; · iexact H8
    ipureintro
    sl_unfold_run_names
    refine (read_store_whole _ _ zero2 _ _ _).trans ?_
    rw [load_whole arg2 harg2 x0 zero2, load_whole arg3 harg3 x1 zero2, View.readCov_unit_zero arg8.view zero2]

set_option maxHeartbeats 1000000 in
theorem body_mid (c : Dev nD) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : ¬k0_cond2 i = 1#1)
    (x0 x1 : Vec F S1024x512 .bf16) (x2 : Vec F S1024x1 .i32) (x3 : Vec F S1x1024 .i32) (p t xi : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ owns (c : Thread nD τ) arg7 fullShare p ∗ owns (c : Thread nD τ) arg8 fullShare t
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (k0_pay1 (k0_pay7 x0 x1 x2 x3 p))
            ∗ owns (c : Thread nD τ) arg8 fullShare (k0_pay6 x0 x1 t)) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [H7]
  · iexists _; isplitr
    swap; · iexact H7
    ipureintro
    refine (read_store_whole _ _ zero2 _ _ _).trans ?_
    dsimp only
    rw [load_whole arg2 harg2 x0 zero2, load_whole arg3 harg3 x1 zero2, load_whole arg4 harg4 x2 zero2,
      load_whole arg5 harg5 x3 zero2, load_whole arg7 harg7 p zero2]
  · iexists _; isplitr
    swap; · iexact H8
    ipureintro
    refine (read_store_whole _ _ zero2 _ _ _).trans ?_
    rw [load_whole arg2 harg2 x0 zero2, load_whole arg3 harg3 x1 zero2, load_whole arg8 harg8 t zero2]

set_option maxHeartbeats 1000000 in
theorem body_last (c : Dev nD) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : k0_cond2 i = 1#1)
    (x0 x1 : Vec F S1024x512 .bf16) (x2 : Vec F S1024x1 .i32) (x3 : Vec F S1x1024 .i32) (p t : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare p ∗ owns (c : Thread nD τ) arg8 fullShare t
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k0_pay2 (k0_pay1 (k0_pay7 x0 x1 x2 x3 p)) (k0_pay6 x0 x1 t))
            ∗ owns (c : Thread nD τ) arg7 fullShare (k0_pay1 (k0_pay7 x0 x1 x2 x3 p))
            ∗ owns (c : Thread nD τ) arg8 fullShare (k0_pay6 x0 x1 t)) -∗ K ⟨⟩))
      ⊢ wp frame (wpE (defs₀ (F := F)) Variants.none c none) E
          (cc0__loss_kernel i arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg7.eq_unread hf7; obtain rfl := harg8.eq_unread hf8
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_run_names
    refine (read_store_whole _ _ zero2 _ _ _).trans ?_
    rw [View.readCov_unit_zero arg7.view zero2, View.readCov_unit_zero arg8.view zero2]
    dsimp only
    rw [load_whole arg2 harg2 x0 zero2, load_whole arg3 harg3 x1 zero2, load_whole arg4 harg4 x2 zero2,
      load_whole arg5 harg5 x3 zero2, load_whole arg7 harg7 p zero2, load_whole arg8 harg8 t zero2]
  isplitl [H7]
  · iexists _; isplitr
    swap; · iexact H7
    ipureintro
    sl_unfold_run_names
    refine (read_store_whole _ _ zero2 _ _ _).trans ?_
    dsimp only
    rw [load_whole arg2 harg2 x0 zero2, load_whole arg3 harg3 x1 zero2, load_whole arg4 harg4 x2 zero2,
      load_whole arg5 harg5 x3 zero2, load_whole arg7 harg7 p zero2]
  · iexists _; isplitr
    swap; · iexact H8
    ipureintro
    sl_unfold_run_names
    refine (read_store_whole _ _ zero2 _ _ _).trans ?_
    rw [load_whole arg2 harg2 x0 zero2, load_whole arg3 harg3 x1 zero2, load_whole arg8 harg8 t zero2]

end Cert.KernelIdeal.Hand
end
-- ==== Proof.KernelIdeal.Data.lean ====
/-
  What the region's buffers hold, point by point.

  At grid point t (row block t / 8, column tile j = t % 8) the four inputs' staging buffers hold the blocks of
  their arrays that the index maps name: rows of the row block (features q and their ids), rows of the column
  tile (features k and their ids). The two row accumulators are defined by recursion on the point: at j = 0
  they restart from zero, otherwise they continue from the point before; each point adds the row sums of
  exp((q kᵀ) · κ) over its column tile — all entries into the total, the entries with equal ids into the
  positive part. The output block of a row block is 0 - log(pos / (tot + ε)) of the accumulators after its
  last column tile. Windows 0 and 1 read ONE array: each holds half of it.
-/
import proofs.«113577_j7507602833891_2_alg».proof.Proof.Entry
import proofs.«113577_j7507602833891_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two row accumulators -/

/-- The accumulators' start at the first column tile: both zero. -/
def accZero : Vec F S1024x1 .f32 × Vec F S1024x1 .f32 := (k0_pay3, k0_pay4)

/-- One point's update: the positive part gains the row sums of the masked exponentials of the point's tile, the
    total those of all its exponentials. -/
def accStep (c : Dev nD) (t : Fin cfg0.N) (b : Vec F S1024x1 .f32 × Vec F S1024x1 .f32) : Vec F S1024x1 .f32 × Vec F S1024x1 .f32 :=
  (k0_pay1 (k0_pay7 (iblk m c 0 t) (iblk m c 1 t) (iblk m c 2 t) (iblk m c 3 t) b.1), k0_pay6 (iblk m c 0 t) (iblk m c 1 t) b.2)

/-- The accumulators (positive part, total) after point `n`: restarted at a first column tile, else continued from
    the point before. -/
def accs (c : Dev nD) : (n : ℕ) → n < cfg0.N → Vec F S1024x1 .f32 × Vec F S1024x1 .f32
  | 0, hn => accStep m c ⟨0, hn⟩ accZero
  | n + 1, hn => accStep m c ⟨n + 1, hn⟩ (if (n + 1) % 8 = 0 then accZero else accs c n (Nat.lt_of_succ_lt hn))

/-- The positive part after point `n`. -/
def accP (c : Dev nD) (n : ℕ) (hn : n < cfg0.N) : Vec F S1024x1 .f32 := (accs m c n hn).1
/-- The total after point `n`. -/
def accT (c : Dev nD) (n : ℕ) (hn : n < cfg0.N) : Vec F S1024x1 .f32 := (accs m c n hn).2

/-- At a first column tile the accumulators are one update of zero. -/
theorem accs_first (c : Dev nD) (t : Fin cfg0.N) (h0 : t.val % 8 = 0) :
    accs m c t.val t.isLt = accStep m c t accZero := by
  obtain ⟨n, hn⟩ := t
  cases n with
  | zero => rfl
  | succ n => exact (congrArg (accStep m c ⟨n + 1, hn⟩) (if_pos h0))

/-- At any other column tile they are one update of the point before's. -/
theorem accs_next (c : Dev nD) (t : Fin cfg0.N) (h0 : ¬t.val % 8 = 0) :
    accs m c t.val t.isLt = accStep m c t (accs m c (t.val - 1) (Nat.lt_of_le_of_lt (Nat.sub_le _ _) t.isLt)) := by
  obtain ⟨n, hn⟩ := t
  cases n with
  | zero => exact absurd (Nat.zero_mod _) h0
  | succ n => exact (congrArg (accStep m c ⟨n + 1, hn⟩) (if_neg h0))

/-- The positive part at a first column tile: the point's masked row sums added to zero. -/
theorem accP_first (c : Dev nD) (t : Fin cfg0.N) (h0 : t.val % 8 = 0) :
    accP m c t.val t.isLt = k0_pay1 (k0_pay7 (iblk m c 0 t) (iblk m c 1 t) (iblk m c 2 t) (iblk m c 3 t) k0_pay3) := by
  unfold accP; rw [accs_first m c t h0]; rfl

/-- The total at a first column tile: the point's row sums added to zero. -/
theorem accT_first (c : Dev nD) (t : Fin cfg0.N) (h0 : t.val % 8 = 0) :
    accT m c t.val t.isLt = k0_pay6 (iblk m c 0 t) (iblk m c 1 t) k0_pay4 := by
  unfold accT; rw [accs_first m c t h0]; rfl

/-- The positive part at a later column tile: the point's masked row sums added to the point before's. -/
theorem accP_next (c : Dev nD) (t : Fin cfg0.N) (h0 : ¬t.val % 8 = 0) :
    accP m c t.val t.isLt = k0_pay1 (k0_pay7 (iblk m c 0 t) (iblk m c 1 t) (iblk m c 2 t) (iblk m c 3 t)
      (accP m c (t.val - 1) (Nat.lt_of_le_of_lt (Nat.sub_le _ _) t.isLt))) := by
  unfold accP; rw [accs_next m c t h0]; rfl

/-- The total at a later column tile: the point's row sums added to the point before's. -/
theorem accT_next (c : Dev nD) (t : Fin cfg0.N) (h0 : ¬t.val % 8 = 0) :
    accT m c t.val t.isLt = k0_pay6 (iblk m c 0 t) (iblk m c 1 t)
      (accT m c (t.val - 1) (Nat.lt_of_le_of_lt (Nat.sub_le _ _) t.isLt)) := by
  unfold accT; rw [accs_next m c t h0]; rfl

/-! ## The invariant between points -/

/-- The two scratch operands: whole scoped buffers of the kernel's own. -/
abbrev scP : Memref sig .tc .vmem S1024x1 .f32 := Memref.whole cc0_scratch0
abbrev scT : Memref sig .tc .vmem S1024x1 .f32 := Memref.whole cc0_scratch1

/-- What the launch hands the region: both scratch buffers at some contents, the generator register at some state. -/
theorem PhiA0_eq (c : Dev nD) :
    (Pipeline.ΦA spec0 c : sProp 𝕄)
      = iprop(iprop((∃ d, owns (c : Thread nD τ) scP fullShare d) ∗ (∃ d, owns (c : Thread nD τ) scT fullShare d)) ∗ (∃ r, prngReg c r)) := by
  unfold Pipeline.ΦA; rw [scopedRest0_eq]; simp only [scP, scT, owns_whole]; try rfl

/-- The invariant before position `n`: before the first point what the launch hands over; afterwards the two
    scratch buffers at the accumulators the point before left. -/
def PhiS (c : Dev nD) : (n : ℕ) → n ≤ cfg0.N → sProp 𝕄
  | 0, _ => Pipeline.ΦA spec0 c
  | n + 1, hn => iprop(iprop(owns (c : Thread nD τ) scP fullShare (accP m c n hn) ∗ owns (c : Thread nD τ) scT fullShare (accT m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (accP m c n hn) ∗ owns (c : Thread nD τ) scT fullShare (accT m c n hn)) ∗ (∃ r, prngReg c r)) := rfl

theorem PhiS_pos (c : Dev nD) (n : ℕ) (h : n ≤ cfg0.N) (hz : n ≠ 0) :
    PhiS m c n h = iprop(iprop(owns (c : Thread nD τ) scP fullShare (accP m c (n - 1) (by omega)) ∗ owns (c : Thread nD τ) scT fullShare (accT m c (n - 1) (by omega))) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at the loss of the accumulators (read only where the
    block is written back, at a last column tile); the invariant `PhiS`; nothing owed; the shared array held in
    halves by its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (accP m c t.val t.isLt) (accT m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- Nothing is owed at any point. -/
theorem owed_eq (c : Dev nD) (t : Fin (cfg0.N + 1)) : (dats m 0 c).owed t = 0 := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay2 (accP m c t.val t.isLt) (accT m c t.val t.isLt) := by dsimp only [dats]

/-- The shares: the shared array's two windows hold its two halves. -/
theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]
theorem q4 (c : Dev nD) : (dats m 0 c).q 4 = fullShare := by dsimp only [dats]

end Cert.KernelIdeal.Hand

end
-- ==== Proof.KernelIdeal.Body.lean ====
/-
  The body obligation of the one kernel region.

  At every grid point the four inputs' staging buffers hold their blocks (fetched there or carried over from the
  point before, whose block index was the same). By the column tile j = t % 8 the point is in one of three cases;
  in each the body's triple applies: the accumulators go from the invariant's values (anything at the very first
  point, zero-restarted at j = 0) to the next ones, the output's buffer is handed back untouched where the block
  is not written back (j < 7) and holds the loss of the finished accumulators where it is (j = 7).
-/
import proofs.«113577_j7507602833891_2_alg».proof.Proof.KernelIdeal.Cases
import proofs.«113577_j7507602833891_2_alg».proof.Proof.KernelIdeal.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body finds in each input's buffer: its block -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Before the last column tile the output is idle: nothing is stored into its buffer, -/
theorem idleAt0_4 : ∀ t : Fin cfg0.N, ¬k0_cond2 (grid0.coords t) = 1#1 → cfg0.idle 4 (grid0.coords t) = true := by decide +kernel
/-- and its block is not written back. -/
theorem noFlush0_4 : ∀ t : Fin cfg0.N, ¬k0_cond2 (grid0.coords t) = 1#1 → (cfg0.win 4).flush t = false := by decide +kernel
/-- At the last column tile the output is live. -/
theorem liveAt0_4 : ∀ t : Fin cfg0.N, k0_cond2 (grid0.coords t) = 1#1 → cfg0.idle 4 (grid0.coords t) = false := by decide +kernel

/-! ## The body at a generic point -/

/-- Each window's current staging memref at point `t`, as the pipeline passes it to the body. -/
abbrev ms0_0 (t : Fin cfg0.N) : Memref sig .tc .vmem S1024x512 .bf16 := win0_0.stage (cfg0.slots t 0)
abbrev ms0_1 (t : Fin cfg0.N) : Memref sig .tc .vmem S1024x512 .bf16 := win0_1.stage (cfg0.slots t 1)
abbrev ms0_2 (t : Fin cfg0.N) : Memref sig .tc .vmem S1024x1 .i32 := win0_2.stage (cfg0.slots t 2)
abbrev ms0_3 (t : Fin cfg0.N) : Memref sig .tc .vmem S1x1024 .i32 := win0_3.stage (cfg0.slots t 3)
abbrev ms0_4 (t : Fin cfg0.N) : Memref sig .tc .vmem S1024x1 .f32 := win0_4.stage (cfg0.slots t 4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the column tile says which case the point is
    in; the invariant hands the body the accumulators the point before left (anything at the very first point)
    and takes them back one update later; the output's buffer comes back untouched before the last column tile
    and holds the row block's loss at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · have hc1 : cond1 (grid0.coords t) := (hcond1 t).mpr h0
    have hc2 : ¬k0_cond2 (grid0.coords t) = 1#1 := fun h => by have := (hcond2 t).mp h; omega
    rw [Dat.leavesExact_idle (dats m 0 c) 4 t (idleAt0_4 t hc2) (noFlush0_4 t hc2)]
    rw [accP_first m c t h0, accT_first m c t h0]
    by_cases hz : t.val = 0
    · rw [PhiS_castSucc m c t, PhiS_zero m c _ _ hz, PhiA0_eq]
      iintro ⟨⟨⟨HP, HT⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ hc1 hc2 (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ hc1 hc2 (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HP]; · iexists _; iexact HP
      isplitl [HT]; · iexists _; iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexists _; iexact H4
  · have hc1 : ¬cond1 (grid0.coords t) := fun h => h0 ((hcond1 t).mp h)
    have hz : t.val ≠ 0 := fun e => h0 (by rw [e])
    rw [accP_next m c t h0, accT_next m c t h0]
    rw [PhiS_castSucc m c t, PhiS_pos m c _ _ hz]
    by_cases h7 : t.val % 8 = 7
    · have hc2 : k0_cond2 (grid0.coords t) = 1#1 := (hcond2 t).mpr h7
      rw [show (dats m 0 c).leavesExact 4 t = owns (c : Thread nD τ) (ms0_4 t) fullShare ((dats m 0 c).after 4 t) from by
        unfold Dat.leavesExact; rw [liveAt0_4 t hc2], after0_4]
      rw [accP_next m c t h0, accT_next m c t h0]
      iintro ⟨⟨⟨HP, HT⟩, Hg⟩, Ho, ⟨%d0, H0⟩, ⟨%d1, H1⟩, ⟨%d2, H2⟩, ⟨%d3, H3⟩, ⟨%d4, H4⟩⟩
      iapply (body_last c (grid0.coords t) _ _ _ _ _ _ _ _ _ _ _ _ _ _ hc1 hc2 (iblk m c 0 t) (iblk m c 1 t) (iblk m c 2 t) (iblk m c 3 t)
        (accP m c (t.val - 1) (Nat.lt_of_le_of_lt (Nat.sub_le _ _) t.isLt)) (accT m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HP]; · iexact HP
      isplitl [HT]; · iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexact H4
    · have hc2 : ¬k0_cond2 (grid0.coords t) = 1#1 := fun h => h7 ((hcond2 t).mp h)
      rw [Dat.leavesExact_idle (dats m 0 c) 4 t (idleAt0_4 t hc2) (noFlush0_4 t hc2)]
      iintro ⟨⟨⟨HP, HT⟩, Hg⟩, Ho, ⟨%d0, H0⟩, ⟨%d1, H1⟩, ⟨%d2, H2⟩, ⟨%d3, H3⟩, ⟨%d4, H4⟩⟩
      iapply (body_mid c (grid0.coords t) _ _ _ _ _ _ _ _ _ _ _ _ _ _ hc1 hc2 (iblk m c 0 t) (iblk m c 1 t) (iblk m c 2 t) (iblk m c 3 t)
        (accP m c (t.val - 1) (Nat.lt_of_le_of_lt (Nat.sub_le _ _) t.isLt)) (accT m c (t.val - 1) (Nat.lt_of_le_of_lt (Nat.sub_le _ _) t.isLt))
        ((dats m 0 c).before 4 t d4) Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, HP, HT⟩
      isplitl [HP HT Hg]
      · isplitl [HP HT]
        · isplitl [HP]; · iexact HP
          iexact HT
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulators' values are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HP, HT⟩, Hg⟩
  isplitl [HP HT]
  · isplitl [HP]; · iexists _; iexact HP
    iexists _; iexact HT
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KernelIdeal.Frames.lean ====
import proofs.«113577_j7507602833891_2_alg».proof.Proof.SharedLaunch
import proofs.«113577_j7507602833891_2_alg».proof.Proof.KernelIdeal.Body
import proofs.«113577_j7507602833891_2_alg».proof.Defs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

variable (m : (ℓ : Loc nD τ sig) → Buf (Elt F) ℓ) (ρ : Dev nD → PrngReg)

/-!
  The run of the program with the proof data of its pipeline, and what it leaves in the buffers the claims speak of:
  the two argument arrays are written by no line and staged by no window, so they end as they began; the result is
  the closing sum of the per-row losses the write-backs left.
-/

/-- No host line writes the features. -/
theorem arg0_kept (op : HloOp τ sig (Elt F)) (hop : op ∈ List.flatten [hostOps0, hostOps0_1] ∨ op ∈ List.flatten [hostOps1 (F := F)]) :
    Proc.devRef .tc main_arg0 ∉ op.writes := by
  simp only [List.flatten_cons, List.flatten_nil, List.append_nil, hostOps0, hostOps0_1, hostOps1, List.cons_append, List.nil_append,
    List.mem_cons, List.mem_nil_iff, or_false] at hop
  rcases hop with (rfl | rfl | rfl | rfl | rfl | rfl | rfl | rfl | rfl | rfl | rfl | rfl | rfl) | (rfl | rfl)
  all_goals simp only [StableHlo.TRef.binary, StableHlo.TRef.unary, StableHlo.TRef.nullary, StableHlo.nullary_writes, StableHlo.unary_writes, StableHlo.binary_writes, StableHlo.reshape_writes, Finset.mem_singleton] <;> exact StableHlo.devRef_ne_of_ne (by decide)

/-- Nor the cluster ids. -/
theorem arg1_kept (op : HloOp τ sig (Elt F)) (hop : op ∈ List.flatten [hostOps0, hostOps0_1] ∨ op ∈ List.flatten [hostOps1 (F := F)]) :
    Proc.devRef .tc main_arg1 ∉ op.writes := by
  simp only [List.flatten_cons, List.flatten_nil, List.append_nil, hostOps0, hostOps0_1, hostOps1, List.cons_append, List.nil_append,
    List.mem_cons, List.mem_nil_iff, or_false] at hop
  rcases hop with (rfl | rfl | rfl | rfl | rfl | rfl | rfl | rfl | rfl | rfl | rfl | rfl | rfl) | (rfl | rfl)
  all_goals simp only [StableHlo.TRef.binary, StableHlo.TRef.unary, StableHlo.TRef.nullary, StableHlo.nullary_writes, StableHlo.unary_writes, StableHlo.binary_writes, StableHlo.reshape_writes, Finset.mem_singleton] <;> exact StableHlo.devRef_ne_of_ne (by decide)

variable (dats : (p : Fin 1) → (c : Dev nD) → Dat τ (Elt F) Unit ℕ (UR sig nD τ) ℕ (cfgs p) c)

theorem endVal_arg0 (c : Dev nD) : endVal m dats c (Proc.devRef .tc main_arg0) = m ((c.tc : Thread nD τ).loc main_arg0) := by
  unfold endVal
  rw [StableHlo.after_of_forall_not_mem _ _ fun op hop => arg0_kept op (.inr hop)]
  unfold exitVal
  rw [Function.update_of_ne (StableHlo.devRef_ne_of_ne (by decide))]
  exact StableHlo.after_of_forall_not_mem _ _ fun op hop => arg0_kept op (.inl hop)

theorem endVal_arg1 (c : Dev nD) : endVal m dats c (Proc.devRef .tc main_arg1) = m ((c.tc : Thread nD τ).loc main_arg1) := by
  unfold endVal
  rw [StableHlo.after_of_forall_not_mem _ _ fun op hop => arg1_kept op (.inr hop)]
  unfold exitVal
  rw [Function.update_of_ne (StableHlo.devRef_ne_of_ne (by decide))]
  exact StableHlo.after_of_forall_not_mem _ _ fun op hop => arg1_kept op (.inl hop)

/-- The run with the pipeline's proof data. -/
theorem run_main : θ_run defs (onTc (τ := τ) (main (F := F))) (s₀ m ρ)
    (Pipeline.FramePost cfgs (Hand.dats m) 0 (fun c b => endVal m (Hand.dats m) c (Proc.devRef .tc b))) :=
  run_shared m ρ (Hand.dats m) (fun c => q0 m c) (fun c => q1 m c) (fun c => q2 m c) (fun c => q3 m c) (fun c w => A_eq m c w)
    (fun c => (body_obligation m c).loose) (fun c t => owed_eq m c t) (fun c => hin m c) (fun c => hout m c)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (endVal_arg0 m (Hand.dats m) c),
     ((h c).2 main_arg1 (Pipeline.mem_restRefs_of main_arg1 rfl (by decide))).trans (endVal_arg1 m (Hand.dats m) c)⟩) (run_main m ρ)

end Cert.KernelIdeal.Hand

end
-- ==== Proof.KernelIdeal.HostValues.lean ====
import proofs.«113577_j7507602833891_2_alg».proof.Proof.KernelIdeal.Frames
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

variable (m : (ℓ : Loc nD τ sig) → Buf (Elt F) ℓ)

/-!
  What the host lines compute. Before the region: each row of the features divided by its Euclidean norm clamped
  below by 1e-12, rounded to bf16; the cluster ids as a column and as a row. After it: the sum of the per-row losses.
-/

/-- The features normalised row by row, as the host computes them. -/
def normalised (x : FVec F S8192x512 .f32) : FVec F S8192x512 .f32 :=
  Host.divf x (broadcastInDim S8192x512 ![0, 1] bcast_S8192x1_S8192x512_0_1
    (maximumf (Host.sqrt (broadcastInDim S8192x1 ![0] bcast_S8192_S8192x1_0
        (Host.reduceAdd (mulf x x) (constant S_ .f32 0x00000000#32) reducesTo_S8192x512_S8192_d1 h_S_)))
      (broadcastInDim S8192x1 ![] bcast_S_S8192x1 (constant S_ .f32 0x2B8CBCCC#32))))

/-- The region finds the normalised features, rounded to bf16, in the array its first two windows stage. -/
theorem V_v5 (c : Dev nD) :
    (V m c main_v5 : S8192x512.Idx → F .bf16) = truncf .bf16 (normalised (m ((c.tc : Thread nD τ).loc main_arg0))) bitsLt_bf16_f32 := by
  dsimp only [V, V0]
  simp only [hostOps0, hostOps0_1, List.flatten_cons, List.flatten_nil, List.append_nil, List.cons_append, List.nil_append]
  after_results
  rfl

/-- The ids as a column. -/
theorem V_v6 (c : Dev nD) :
    (V m c main_v6 : S8192x1.Idx → BitVec 32) = shapeCast S8192x1 (m ((c.tc : Thread nD τ).loc main_arg1)) shapeCasts_S8192_S8192x1 := by
  dsimp only [V, V0]
  simp only [hostOps0, hostOps0_1, List.flatten_cons, List.flatten_nil, List.append_nil, List.cons_append, List.nil_append]
  after_results
  rfl

/-- The ids as a row. -/
theorem V_v7 (c : Dev nD) :
    (V m c main_v7 : S1x8192.Idx → BitVec 32) = shapeCast S1x8192 (m ((c.tc : Thread nD τ).loc main_arg1)) shapeCasts_S8192_S1x8192 := by
  dsimp only [V, V0]
  simp only [hostOps0, hostOps0_1, List.flatten_cons, List.flatten_nil, List.append_nil, List.cons_append, List.nil_append]
  after_results
  rfl

variable (dats : (p : Fin 1) → (c : Dev nD) → Dat τ (Elt F) Unit ℕ (UR sig nD τ) ℕ (cfgs p) c)

/-- The result buffer ends at the sum of the per-row losses as the write-backs left them. -/
theorem endVal_v9 (c : Dev nD) :
    (endVal m dats c (Proc.devRef .tc main_v9) : S_.Idx → F .f32)
      = Host.reduceAdd ((dats 0 c).arrAt 4 cfg0.N : S8192x1.Idx → F .f32) (constant S_ .f32 0x00000000#32) reducesTo_S8192x1_S_d0_1 h_S_ := by
  unfold endVal
  simp only [List.flatten_cons, List.flatten_nil, List.append_nil, hostOps1]
  after_results
  unfold exitVal
  rw [Function.update_self]

end Cert.KernelIdeal.Hand

end
-- ==== Proof.RowLoss.lean ====
/- The per-row contrastive loss over plain index types, in its two arrangements, and their equality on the
   extended reals.

   For normalised features `fn : Fin 8192 → Fin 512 → EReal`, cluster ids `cl`, a scale `s` and an `eps`:
   `e r j = exp ((∑ d, fn r d * fn j d) * s)`.
   * Whole-row arrangement: `P r = 0 + ∑ j, e r j * m r j`, `N r = 0 + ∑ j, e r j * (1 - m r j)` with the 0/1 mask
     `m r j = [cl j = cl r]`, and `refRow r = -log (P r / ((P r + N r) + eps))`.
   * Tiled arrangement: the 8192 columns cut into 8 tiles of 1024; an accumulator starts at 0 and tile `J` adds
     `0 + ∑ l, f (1024 J + l)`; `Tk r` accumulates `e r`, `Pk r` accumulates `e r j` where `cl r = cl j` and `0`
     elsewhere, and `kerRow r = 0 - log (Pk r / (Tk r + eps))`.
   The two agree for EVERY input, with no finiteness hypothesis: `x * 0 = 0`, `x * 1 = x`, `1 - 1 = 0`, `1 - 0 = 1`,
   `0 + x = x` and `0 - x = -x` hold for every extended real, and regrouping a finite sum needs only a commutative
   additive monoid. -/
import Idealize.ShloMosaic.PureOps.Ideal
import Idealize.ShloMosaic.Lib.ValueIdx

noncomputable section

namespace Cert.ReferenceIdeal.Hand

open Idealize.ShloMosaic
open scoped BigOperators

/-! ## Tiles of the column axis -/

/-- Column `1024 * J + l`: position `l` of tile `J`. -/
def col (J : Fin 8) (l : Fin 1024) : Fin 8192 := ⟨1024 * J.val + l.val, by omega⟩

@[simp] theorem col_val (J : Fin 8) (l : Fin 1024) : (col J l).val = 1024 * J.val + l.val := rfl

/-- The columns are the pairs (tile, position in the tile). -/
def colEquiv : Fin 8 × Fin 1024 ≃ Fin 8192 where
  toFun p := col p.1 p.2
  invFun j := (⟨j.val / 1024, by omega⟩, ⟨j.val % 1024, Nat.mod_lt _ (by decide)⟩)
  left_inv p := by
    obtain ⟨J, l⟩ := p
    refine Prod.ext (Fin.ext ?_) (Fin.ext ?_)
    · show (1024 * J.val + l.val) / 1024 = J.val
      omega
    · show (1024 * J.val + l.val) % 1024 = l.val
      omega
  right_inv j := Fin.ext (by show 1024 * (j.val / 1024) + j.val % 1024 = j.val; omega)

/-- A sum over the 8192 columns is the sum over the 8 tiles of the sums over each tile's 1024 columns
    (in any commutative additive monoid). -/
theorem sum_tiles {M : Type*} [AddCommMonoid M] (f : Fin 8192 → M) :
    ∑ j : Fin 8192, f j = ∑ J : Fin 8, ∑ l : Fin 1024, f (col J l) := by
  rw [← Equiv.sum_comp colEquiv f, Fintype.sum_prod_type]
  rfl

/-- What one tile adds to an accumulator: a lane sum started from zero. -/
def tileSum (f : Fin 8192 → EReal) (J : Fin 8) : EReal := 0 + ∑ l : Fin 1024, f (col J l)

/-- The accumulator after the first `n` tiles: it starts at `0` and tile `n` adds `t n`. -/
def accUpTo (t : Fin 8 → EReal) : Nat → EReal
  | 0 => 0
  | n + 1 => accUpTo t n + (if h : n < 8 then t ⟨n, h⟩ else 0)

@[simp] theorem accUpTo_zero (t : Fin 8 → EReal) : accUpTo t 0 = 0 := rfl

theorem accUpTo_succ (t : Fin 8 → EReal) (n : Nat) (h : n < 8) : accUpTo t (n + 1) = accUpTo t n + t ⟨n, h⟩ := by
  show accUpTo t n + (if h : n < 8 then t ⟨n, h⟩ else 0) = _
  rw [dif_pos h]

/-- The same accumulator at a tile `J : Fin 8`: after tile `J` it is what it was before, plus `t J`. -/
theorem accUpTo_fin_succ (t : Fin 8 → EReal) (J : Fin 8) : accUpTo t (J.val + 1) = accUpTo t J.val + t J :=
  accUpTo_succ t J.val J.isLt

/-- After all 8 tiles the accumulator is the sum of what the tiles added. -/
theorem accUpTo_eight (t : Fin 8 → EReal) : accUpTo t 8 = ∑ J : Fin 8, t J := by
  simp only [accUpTo, Fin.sum_univ_eight]
  simp only [Nat.lt_irrefl, show (0 : Nat) < 8 by decide, show (1 : Nat) < 8 by decide, show (2 : Nat) < 8 by decide,
    show (3 : Nat) < 8 by decide, show (4 : Nat) < 8 by decide, show (5 : Nat) < 8 by decide, show (6 : Nat) < 8 by decide,
    show (7 : Nat) < 8 by decide, dite_true, zero_add]
  rfl

/-- The accumulator as a left fold over the tiles in order. -/
theorem foldl_tiles (t : Fin 8 → EReal) : (List.finRange 8).foldl (fun a J => a + t J) 0 = ∑ J : Fin 8, t J := by
  simp [List.finRange_succ, Fin.sum_univ_eight, add_assoc]

/-- The accumulator over all tiles of lane sums from zero is the whole row's sum. -/
theorem accUpTo_tileSum (f : Fin 8192 → EReal) : accUpTo (tileSum f) 8 = ∑ j : Fin 8192, f j := by
  rw [accUpTo_eight, sum_tiles]
  exact Finset.sum_congr rfl fun J _ => zero_add _

/-! ## The mask as a product, and the two parts of a row -/

/-- Selecting `x` or `0` is multiplying by the 0/1 mask. -/
theorem mul_mask (x : EReal) (c : Prop) [Decidable c] : x * (if c then (1 : EReal) else 0) = if c then x else 0 := by
  split <;> simp

/-- The masked part and the complementary part of a value add up to the value, for every extended real. -/
theorem mask_add_compl (x : EReal) (c : Prop) [Decidable c] :
    x * (if c then (1 : EReal) else 0) + x * (1 - (if c then (1 : EReal) else 0)) = x := by
  have h11 : (1 : EReal) - 1 = 0 := by
    have : ((1 : ℝ) : EReal) - ((1 : ℝ) : EReal) = ((1 - 1 : ℝ) : EReal) := (EReal.coe_sub 1 1).symm
    simpa using this
  split
  · rw [h11, mul_one, mul_zero, add_zero]
  · rw [sub_zero, mul_zero, mul_one, zero_add]

/-- `0 - x = -x` for every extended real. -/
theorem zero_sub_ereal (x : EReal) : (0 : EReal) - x = -x := by
  rw [sub_eq_add_neg, zero_add]

/-! ## The row loss, both ways -/

section
variable (fn : Fin 8192 → Fin 512 → EReal) (cl : Fin 8192 → BitVec 32) (s eps : EReal)

/-- The exponentiated scaled similarity of rows `r` and `j`. -/
def e (r j : Fin 8192) : EReal := Ideal.exp ((∑ d : Fin 512, fn r d * fn j d) * s)

/-- The 0/1 mask: column `j` is in row `r`'s cluster. -/
def msk (r j : Fin 8192) : EReal := if cl j = cl r then 1 else 0

/-- The in-cluster sum of a row, as a masked product summed from zero. -/
def P (r : Fin 8192) : EReal := 0 + ∑ j : Fin 8192, e fn s r j * msk cl r j

/-- The out-of-cluster sum of a row. -/
def N (r : Fin 8192) : EReal := 0 + ∑ j : Fin 8192, e fn s r j * (1 - msk cl r j)

/-- The row loss in the whole-row arrangement. -/
def refRow (r : Fin 8192) : EReal := -Ideal.log (Ideal.div (P fn cl s r) ((P fn cl s r + N fn cl s r) + eps))

/-- What row `r` selects at column `j`: `e r j` inside its cluster, `0` outside. -/
def sel (r j : Fin 8192) : EReal := if cl r = cl j then e fn s r j else 0

/-- The total accumulator of a row after `n` column tiles. -/
def TkUpTo (r : Fin 8192) (n : Nat) : EReal := accUpTo (tileSum (e fn s r)) n

/-- The in-cluster accumulator of a row after `n` column tiles. -/
def PkUpTo (r : Fin 8192) (n : Nat) : EReal := accUpTo (tileSum (sel fn cl s r)) n

/-- The total accumulator after all 8 tiles. -/
def Tk (r : Fin 8192) : EReal := TkUpTo fn s r 8

/-- The in-cluster accumulator after all 8 tiles. -/
def Pk (r : Fin 8192) : EReal := PkUpTo fn cl s r 8

/-- The row loss in the tiled arrangement. -/
def kerRow (r : Fin 8192) : EReal := 0 - Ideal.log (Ideal.div (Pk fn cl s r) (Tk fn s r + eps))

theorem Tk_eq_sum (r : Fin 8192) : Tk fn s r = ∑ j : Fin 8192, e fn s r j := accUpTo_tileSum _

theorem Pk_eq_sum (r : Fin 8192) : Pk fn cl s r = ∑ j : Fin 8192, sel fn cl s r j := accUpTo_tileSum _

theorem P_eq_sum (r : Fin 8192) : P fn cl s r = ∑ j : Fin 8192, sel fn cl s r j := by
  unfold P
  rw [zero_add]
  refine Finset.sum_congr rfl fun j _ => ?_
  unfold msk sel
  rw [mul_mask]
  exact if_congr eq_comm rfl rfl

theorem P_add_N (r : Fin 8192) : P fn cl s r + N fn cl s r = ∑ j : Fin 8192, e fn s r j := by
  unfold P N
  rw [zero_add, zero_add, ← Finset.sum_add_distrib]
  exact Finset.sum_congr rfl fun j _ => mask_add_compl _ _

/-- The in-cluster accumulator is the whole-row in-cluster sum. -/
theorem Pk_eq_P (r : Fin 8192) : Pk fn cl s r = P fn cl s r := by rw [Pk_eq_sum, P_eq_sum]

/-- The total accumulator is the in-cluster sum plus the out-of-cluster sum. -/
theorem Tk_eq_P_add_N (r : Fin 8192) : Tk fn s r = P fn cl s r + N fn cl s r := by rw [Tk_eq_sum, P_add_N]

/-- The tiled row loss is the whole-row row loss, for every input. -/
theorem kerRow_eq_refRow (r : Fin 8192) : kerRow fn cl s eps r = refRow fn cl s eps r := by
  unfold kerRow refRow
  rw [zero_sub_ereal, Pk_eq_P, Tk_eq_P_add_N]

end

end Cert.ReferenceIdeal.Hand

end
-- ==== Proof.RefRows.lean ====
/- The reference program read back row by row: its negated-log stage at row `r` is the whole-row row loss
   `refRow` of its own normalised features and the cluster ids, with the scale `1 / 0.1f` (the reciprocal of the
   real the reference's divisor denotes) and its own `eps` word; and its run ends at the host sum of those rows. -/
import proofs.«113577_j7507602833891_2_alg».proof.Defs
import proofs.«113577_j7507602833891_2_alg».proof.Proof.Gen.ReferenceIdeal.Read
import proofs.«113577_j7507602833891_2_alg».proof.Proof.RowLoss

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

/-! ## The constants the reference spells -/

/-- The reference's divisor `0.1f` denotes the real `13421773 / 134217728`. -/
theorem ofBits_tenth : Ideal.ofBits .f32 0x3DCCCCCD#32 = ((13421773 / 134217728 : ℝ) : EReal) := by
  simp [Ideal.ofBits, Ideal.ieee, -EReal.coe_mul]; norm_num

/-- `1.0f` denotes `1`. -/
theorem ofBits_one : Ideal.ofBits .f32 0x3F800000#32 = 1 := by
  simp [Ideal.ofBits, Ideal.ieee, -EReal.coe_mul]; norm_num

/-- The scale: the reciprocal of the real `0.1f` denotes. -/
def scale : EReal := ((134217728 / 13421773 : ℝ) : EReal)

/-- The reference's `eps` word, left as its pattern. -/
def epsWord : EReal := Ideal.ofBits .f32 0x322BCC77#32

/-! ## The reference's features and ids over plain indices -/

/-- The reference's normalised features (its stage `x / max (sqrt (∑ x²)) 1e-12`), over plain indices. -/
def refFn (x0 : (⟨S8192x512, .f32⟩ : BufTy).Contents (Elt Ideal)) : Fin 8192 → Fin 512 → EReal :=
  fun a d => val_main_v4 (F := Ideal) x0 (ix2 a d)

/-- The cluster ids over plain indices. -/
def refCl (x1 : (⟨S8192, .i32⟩ : BufTy).Contents (Elt Ideal)) : Fin 8192 → BitVec 32 :=
  fun a => x1 (ix1 a)

variable (x0 : (⟨S8192x512, .f32⟩ : BufTy).Contents (Elt Ideal)) (x1 : (⟨S8192, .i32⟩ : BufTy).Contents (Elt Ideal))

/-- The exponentiated similarity stage at `(r, j)`. -/
theorem v8_at (r j : Fin 8192) : val_main_v8 (F := Ideal) x0 (ix2 r j) = e (refFn x0) scale r j := by
  have hl : ∀ k : Fin 512, lidx_main_v5 (ix2 r j) k = ix2 r k := fun k =>
    funext fun a => by match a with | ⟨0, _⟩ => rfl | ⟨1, _⟩ => rfl
  have hr : ∀ k : Fin 512, ridx_main_v5 (ix2 r j) k = ix2 j k := fun k =>
    funext fun a => by match a with | ⟨0, _⟩ => rfl | ⟨1, _⟩ => rfl
  have hs : ((1 / (13421773 / 134217728 : ℝ) : ℝ) : EReal) = scale := by
    unfold scale; congr 1; norm_num
  rw [val_main_v8_apply, val_main_v7_apply, val_main_v5_apply, val_main_v6_apply, val_main_cst_0_apply]
  simp only [Ideal.hostUnary_exp_def, Ideal.hostDivf_def, Ideal.ofBits_def, ofBits_tenth,
    Ideal.div_coe (by norm_num : (13421773 / 134217728 : ℝ) ≠ 0), hl, hr, hs]
  rfl

/-- The mask stage at `(r, j)`: `1` where column `j`'s id is row `r`'s, else `0`. -/
theorem v14_at (r j : Fin 8192) : val_main_v14 (F := Ideal) x1 (ix2 r j) = msk (refCl x1) r j := by
  have h9 : idx_main_v9 (idx_main_v11 (ix2 r j)) = ix1 j :=
    funext fun a => by match a with | ⟨0, _⟩ => rfl
  have h10 : idx_main_v10 (idx_main_v12 (ix2 r j)) = ix1 r :=
    funext fun a => by match a with | ⟨0, _⟩ => rfl
  rw [val_main_v14_apply, val_main_v13_apply, val_main_v11_apply, val_main_v12_apply, val_main_v9_apply,
    val_main_v10_apply, h9, h10]
  show (((IntOp.cmpi .eq (x1 (ix1 j)) (x1 (ix1 r))).toNat : ℝ) : EReal) = if x1 (ix1 j) = x1 (ix1 r) then 1 else 0
  by_cases h : x1 (ix1 j) = x1 (ix1 r)
  · simp [IntOp.cmpi, h]
  · simp [IntOp.cmpi, h]

/-- The in-cluster row sum stage. -/
theorem v17_at (r : Fin 8192) (c : Fin 1) : val_main_v17 (F := Ideal) x0 x1 (ix2 r c) = P (refFn x0) (refCl x1) scale r := by
  have h17 : idx_main_v17 (ix2 r c) = ix1 r := funext fun a => by match a with | ⟨0, _⟩ => rfl
  have h16 : ∀ k : Fin 8192, idx_main_v16 (ix1 r) k = ix2 r k := fun k =>
    funext fun a => by match a with | ⟨0, _⟩ => rfl | ⟨1, _⟩ => rfl
  rw [val_main_v17_apply, h17, val_main_v16_apply, val_main_cst_1_apply]
  simp only [h16, val_main_v15_apply, v8_at, v14_at, Ideal.mulf_def, Ideal.ofBits_def, Ideal.ofBits_zero_f32]
  rfl

/-- The out-of-cluster row sum stage. -/
theorem v22_at (r : Fin 8192) (c : Fin 1) : val_main_v22 (F := Ideal) x0 x1 (ix2 r c) = N (refFn x0) (refCl x1) scale r := by
  have h22 : idx_main_v22 (ix2 r c) = ix1 r := funext fun a => by match a with | ⟨0, _⟩ => rfl
  have h21 : ∀ k : Fin 8192, idx_main_v21 (ix1 r) k = ix2 r k := fun k =>
    funext fun a => by match a with | ⟨0, _⟩ => rfl | ⟨1, _⟩ => rfl
  rw [val_main_v22_apply, h22, val_main_v21_apply, val_main_cst_3_apply]
  simp only [h21, val_main_v20_apply, val_main_v19_apply, val_main_v18_apply, val_main_cst_2_apply, v8_at, v14_at,
    Ideal.mulf_def, Ideal.subf_def, Ideal.ofBits_def, Ideal.ofBits_zero_f32, ofBits_one]
  rfl

/-- The negated-log stage at row `r` is the whole-row row loss. -/
theorem v28_at (r : Fin 8192) (c : Fin 1) :
    val_main_v28 (F := Ideal) x0 x1 (ix2 r c) = refRow (refFn x0) (refCl x1) scale epsWord r := by
  rw [val_main_v28_apply, val_main_v27_apply, val_main_v26_apply, val_main_v25_apply, val_main_v23_apply,
    val_main_v24_apply, val_main_cst_4_apply, v17_at, v22_at]
  simp only [Ideal.hostNegf_def, Ideal.negf_def, Ideal.hostUnary_log_def, Ideal.hostDivf_def, Ideal.addf_def, Ideal.ofBits_def]
  rfl

/-- The reference's normalised-features stage as ONE term of the argument array: `x / max (sqrt (0 + ∑ x²)) 1e-12`,
    the divisor broadcast along the row. -/
theorem v4_eq_term : val_main_v4 (F := Ideal) x0
    = Host.divf (F := Ideal) x0 (broadcastInDim S8192x512 ![0, 1] bcast_S8192x1_S8192x512_0_1
        (maximumf (F := Ideal) (Host.sqrt (F := Ideal) (broadcastInDim S8192x1 ![0] bcast_S8192_S8192x1_0
          (Host.reduceAdd (F := Ideal) (mulf (F := Ideal) x0 x0) (constant (F := Ideal) S_ .f32 0x00000000#32) reducesTo_S8192x512_S8192_d1 h_S_)))
          (broadcastInDim S8192x1 ![] bcast_S_S8192x1 (constant (F := Ideal) S_ .f32 0x2B8CBCCC#32)))) := rfl

/-- The same stage at an index: the entry over the larger of the row's norm and the floor word. -/
theorem refFn_apply (a : Fin 8192) (d : Fin 512) :
    refFn x0 a d = Ideal.div (x0 (ix2 a d))
      (max (Ideal.sqrt (0 + ∑ k : Fin 512, x0 (ix2 a k) * x0 (ix2 a k))) (Ideal.ofBits .f32 0x2B8CBCCC#32)) := by
  have h3 : idx_main_v3 (ix2 a d) = ix2 a (0 : Fin 1) :=
    funext fun b => by match b with | ⟨0, _⟩ => rfl | ⟨1, _⟩ => rfl
  have h2 : idx_main_call0_v2 (ix2 a (0 : Fin 1)) = ix1 a := funext fun b => by match b with | ⟨0, _⟩ => rfl
  have h1 : ∀ k : Fin 512, idx_main_call0_v1 (ix1 a) k = ix2 a k := fun k =>
    funext fun b => by match b with | ⟨0, _⟩ => rfl | ⟨1, _⟩ => rfl
  unfold refFn
  rw [val_main_v4_apply, val_main_v3_apply, h3, val_main_v2_apply, val_main_v0_apply, val_main_call0_v2_apply, h2,
    val_main_call0_v1_apply, val_main_call0_cst_apply, val_main_v1_apply, val_main_cst_apply]
  simp only [h1, val_main_call0_v0_apply, Ideal.hostDivf_def, Ideal.maximumf_def, Ideal.hostUnary_sqrt_def, Ideal.mulf_def,
    Ideal.ofBits_def, Ideal.ofBits_zero_f32]

/-- The rows of losses as the `[8192, 1]` array the final host sum takes. -/
def rowsArr (x0 : (⟨S8192x512, .f32⟩ : BufTy).Contents (Elt Ideal)) (x1 : (⟨S8192, .i32⟩ : BufTy).Contents (Elt Ideal)) :
    (⟨S8192x1, .f32⟩ : BufTy).Contents (Elt Ideal) :=
  fun i => refRow (refFn x0) (refCl x1) scale epsWord (i 0)

theorem v28_eq_rowsArr : val_main_v28 (F := Ideal) x0 x1 = rowsArr x0 x1 := by
  funext i
  rw [eq_ix2 i]
  exact v28_at x0 x1 (i 0) (i 1)

/-- The reference's result as a function of its two argument arrays: the host sum, from zero, of the rows of losses. -/
def refResult (x0 : (⟨S8192x512, .f32⟩ : BufTy).Contents (Elt Ideal)) (x1 : (⟨S8192, .i32⟩ : BufTy).Contents (Elt Ideal)) :
    (⟨S_, .f32⟩ : BufTy).Contents (Elt Ideal) :=
  Host.reduceAdd (F := Ideal) (rowsArr x0 x1) (constant (F := Ideal) S_ .f32 0x00000000#32) reducesTo_S8192x1_S_d0_1 h_S_

/-- The reference's last stage is the host sum of the rows of losses. -/
theorem v29_eq_refResult : val_main_v29 (F := Ideal) x0 x1 = refResult x0 x1 := by
  unfold val_main_v29 refResult
  rw [v28_eq_rowsArr]
  rfl

/-- Every weakly fair execution of the reference terminates with its result at the host sum of the rows of losses of
    the argument arrays, and the argument arrays unchanged. -/
theorem run_ref (m' : (ℓ : Loc nD τ sig) → Buf (Elt Ideal) ℓ) (g' : Dev nD → PrngReg) :
    θ_run (Cert.ReferenceIdeal.defs (F := Ideal)) (onTc (τ := τ) (main (F := Ideal))) ⟨m', fun _ => 0, g'⟩ (fun r => ∀ c : Dev nD,
      r.2.mem ((c.tc : Thread nD τ).loc main_v29)
        = refResult (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run Cert.ReferenceIdeal.defs _ _).mono
    (fun _ h c => ⟨(h c).1.trans ((val_main_v29_eq m' c).trans (v29_eq_refResult _ _)), (h c).2⟩)
    (Cert.ReferenceIdeal.Value.run (F := Ideal) m' g')

end Cert.ReferenceIdeal.Hand

end
-- ==== Proof.KernelIdeal.Staged.lean ====
import proofs.«113577_j7507602833891_2_alg».proof.Proof.KernelIdeal.HostValues
import proofs.«113577_j7507602833891_2_alg».proof.Proof.RefRows
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.Hand (refFn refCl)

variable (m : (ℓ : Loc nD τ sig) → Buf (Elt Ideal) ℓ)

/-!
  On the extended reals rounding to bf16 changes nothing, so the array the first two windows stage holds the very
  normalised features the reference computes, and the two id views hold the ids.
-/

/-- The staged features are the reference's normalised features of the same argument. -/
theorem staged_v5 (c : Dev nD) (a : Fin 8192) (d : Fin 512) :
    V m c main_v5 (ix2 a d) = refFn (m ((c.tc : Thread nD τ).loc main_arg0)) a d := by
  rw [V_v5]
  rfl

/-- The column of ids. -/
theorem staged_v6 (c : Dev nD) (a : Fin 8192) (u : Fin 1) :
    V m c main_v6 (ix2 a u) = refCl (m ((c.tc : Thread nD τ).loc main_arg1)) a := by
  rw [V_v6]
  unfold refCl
  refine shapeCast_apply _ _ _ (ix1 a) ?_
  show (S8192.rowMajor (ix1 a)).val = (S8192x1.rowMajor (ix2 a u)).val
  have hu : u.val = 0 := by omega
  rw [Shape.rowMajor_val_two, Shape.rowMajor_val_one]
  show a.val = a.val * 1 + u.val
  omega

/-- The row of ids. -/
theorem staged_v7 (c : Dev nD) (u : Fin 1) (a : Fin 8192) :
    V m c main_v7 (ix2 u a) = refCl (m ((c.tc : Thread nD τ).loc main_arg1)) a := by
  rw [V_v7]
  unfold refCl
  refine shapeCast_apply _ _ _ (ix1 a) ?_
  show (S8192.rowMajor (ix1 a)).val = (S1x8192.rowMajor (ix2 u a)).val
  have hu : u.val = 0 := by omega
  rw [Shape.rowMajor_val_two, Shape.rowMajor_val_one]
  show a.val = u.val * 8192 + a.val
  omega

end Cert.KernelIdeal.Hand

end
-- ==== Proof.KernelIdeal.OutArray.lean ====
/-
  The output array after the region, and the inputs' blocks read at an index.

  Row r = 1024·I + p of the output belongs to row block I; it is written back once, at the last column tile of
  that row block (grid point 8·I + 7), from the accumulators as they stand there: entry (r, 0) is
  0 - log(pos / (tot + ε)) at position p of the block. The eight written-back blocks tile the 8192 rows, so the
  array ends as that one function of the row. An input block at point t is the rows of the row block t / 8
  (features q and their ids) or of the column tile t % 8 (features k and their ids) of its array.
-/
import proofs.«113577_j7507602833891_2_alg».proof.Proof.KernelIdeal.Body
import proofs.«113577_j7507602833891_2_alg».proof.Proof.RowLoss
import Idealize.ShloMosaic.Lib.ValueIdx
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open Cert.ReferenceIdeal.Hand (col col_val)

/-! ## Row block and column tile of a grid point -/

/-- The row block of grid point `t`. -/
def rowBlk (t : Fin cfg0.N) : Fin 8 := ⟨t.val / 8, by have hN : cfg0.N = 64 := N_0; have := t.isLt; omega⟩
/-- The column tile of grid point `t`. -/
def colTile (t : Fin cfg0.N) : Fin 8 := ⟨t.val % 8, Nat.mod_lt _ (by decide)⟩

@[simp] theorem rowBlk_val (t : Fin cfg0.N) : (rowBlk t).val = t.val / 8 := rfl
@[simp] theorem colTile_val (t : Fin cfg0.N) : (colTile t).val = t.val % 8 := rfl

/-- The printed index maps, decided over the grid: the features-as-rows, the row ids and the output move with the
    row block; the features-as-columns and the column ids with the column tile. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-! ## The inputs' blocks at an index -/

/-- Row `p` of the features-as-rows block at point `t` is row `1024 · (t / 8) + p` of the normalised features. -/
theorem iblk0_apply (c : Dev nD) (t : Fin cfg0.N) (p : Fin 1024) (d : Fin 512) :
    iblk m c 0 t (ix2 p d) = (V m c main_v5 : S8192x512.Idx → Elt F .bf16) (ix2 (col (rowBlk t) p) d) := by
  obtain ⟨e0, e1, -⟩ := idx_facts t
  show (V m c main_v5 : S8192x512.Idx → Elt F .bf16) (((cfg0.win 0).blk t).view.emb (ix2 p d)) = _
  congr 1
  funext a; apply Fin.ext
  match a with
  | ⟨0, _⟩ => show win0_0.index t (0 : Fin 2) * 1024 + 1 * p.val = 1024 * (t.val / 8) + p.val; omega
  | ⟨1, _⟩ => show win0_0.index t (1 : Fin 2) * 512 + 1 * d.val = d.val; omega

/-- Row `l` of the features-as-columns block at point `t` is row `1024 · (t % 8) + l` of the normalised features. -/
theorem iblk1_apply (c : Dev nD) (t : Fin cfg0.N) (l : Fin 1024) (d : Fin 512) :
    iblk m c 1 t (ix2 l d) = (V m c main_v5 : S8192x512.Idx → Elt F .bf16) (ix2 (col (colTile t) l) d) := by
  obtain ⟨-, -, e0, e1, -⟩ := idx_facts t
  show (V m c main_v5 : S8192x512.Idx → Elt F .bf16) (((cfg0.win 1).blk t).view.emb (ix2 l d)) = _
  congr 1
  funext a; apply Fin.ext
  match a with
  | ⟨0, _⟩ => show win0_1.index t (0 : Fin 2) * 1024 + 1 * l.val = 1024 * (t.val % 8) + l.val; omega
  | ⟨1, _⟩ => show win0_1.index t (1 : Fin 2) * 512 + 1 * d.val = d.val; omega

/-- Entry `p` of the row ids' block at point `t` is the id of row `1024 · (t / 8) + p`. -/
theorem iblk2_apply (c : Dev nD) (t : Fin cfg0.N) (p : Fin 1024) :
    iblk m c 2 t (ix2 p (0 : Fin 1)) = (V m c main_v6 : S8192x1.Idx → Elt F .i32) (ix2 (col (rowBlk t) p) (0 : Fin 1)) := by
  obtain ⟨-, -, -, -, e0, e1, -⟩ := idx_facts t
  show (V m c main_v6 : S8192x1.Idx → Elt F .i32) (((cfg0.win 2).blk t).view.emb (ix2 p (0 : Fin 1))) = _
  congr 1
  funext a; apply Fin.ext
  match a with
  | ⟨0, _⟩ => show win0_2.index t (0 : Fin 2) * 1024 + 1 * p.val = 1024 * (t.val / 8) + p.val; omega
  | ⟨1, _⟩ => show win0_2.index t (1 : Fin 2) * 1 + 1 * 0 = 0; omega

/-- Entry `l` of the column ids' block at point `t` is the id of row `1024 · (t % 8) + l`. -/
theorem iblk3_apply (c : Dev nD) (t : Fin cfg0.N) (l : Fin 1024) :
    iblk m c 3 t (ix2 (0 : Fin 1) l) = (V m c main_v7 : S1x8192.Idx → Elt F .i32) (ix2 (0 : Fin 1) (col (colTile t) l)) := by
  obtain ⟨-, -, -, -, -, -, e0, e1, -⟩ := idx_facts t
  show (V m c main_v7 : S1x8192.Idx → Elt F .i32) (((cfg0.win 3).blk t).view.emb (ix2 (0 : Fin 1) l)) = _
  congr 1
  funext a; apply Fin.ext
  match a with
  | ⟨0, _⟩ => show win0_3.index t (0 : Fin 2) * 1 + 1 * 0 = 0; omega
  | ⟨1, _⟩ => show win0_3.index t (1 : Fin 2) * 1024 + 1 * l.val = 1024 * (t.val % 8) + l.val; omega

/-! ## The output array -/

/-- The grid point that writes row `r` back: the last column tile of its row block. -/
theorem lastPt_lt (r : Fin 8192) : 8 * (r.val / 1024) + 7 < cfg0.N := by
  have hN : cfg0.N = 64 := N_0; have := r.isLt; omega

/-- The loss of row `r`: the body's closing formula of the two accumulators after the last column tile of the
    row's block, at the row's position in the block. -/
def rowLoss (c : Dev nD) (r : Fin 8192) : Elt F .f32 :=
  k0_pay2 (accP m c (8 * (r.val / 1024) + 7) (lastPt_lt r)) (accT m c (8 * (r.val / 1024) + 7) (lastPt_lt r))
    (ix2 (⟨r.val % 1024, Nat.mod_lt _ (by decide)⟩ : Fin 1024) (0 : Fin 1))

/-- The output array after the region: each row at its loss. -/
def outArr (c : Dev nD) : S8192x1.Idx → Elt F .f32 := fun i => rowLoss m c (i 0)

/-- The loss of a row, from the point that writes it: row `1024 · (t / 8) + p` at a last column tile `t`. -/
theorem rowLoss_eq (c : Dev nD) (r : Fin 8192) (t : Fin cfg0.N) (p : Fin 1024) (ht : t.val % 8 = 7)
    (hr : r.val = 1024 * (t.val / 8) + p.val) :
    rowLoss m c r = k0_pay2 (accP m c t.val t.isLt) (accT m c t.val t.isLt) (ix2 p (0 : Fin 1)) := by
  have h1 : 8 * (r.val / 1024) + 7 = t.val := by have := p.isLt; omega
  have h2 : r.val % 1024 = p.val := by have := p.isLt; omega
  have key : ∀ (n : ℕ) (hn : n < cfg0.N) (q : Fin 1024), n = t.val → q = p →
      k0_pay2 (accP m c n hn) (accT m c n hn) (ix2 q (0 : Fin 1))
        = k0_pay2 (accP m c t.val t.isLt) (accT m c t.val t.isLt) (ix2 p (0 : Fin 1)) := by
    intro n hn q e1 e2; subst e1; subst e2; rfl
  exact key _ _ _ h1 (Fin.ext h2)

/-- What a last column tile writes back is its block of the output array. -/
theorem flushed4_eq (c : Dev nD) (t : Fin cfg0.N) (ht : t.val % 8 = 7) :
    (dats m 0 c).flushed 4 t = ((cfg0.win 4).blk t).view.read (Elt F) (outArr m c) := by
  show (cfg0.win 4).cut (grid0.coords t) ((dats m 0 c).after 4 t) = _
  rw [after0_4]
  obtain ⟨-, -, -, -, -, -, -, -, e0, e1⟩ := idx_facts t
  funext j
  obtain ⟨p, q, rfl⟩ : ∃ (p : Fin 1024) (q : Fin 1), j = ix2 p q := ⟨j 0, j 1, eq_ix2 j⟩
  obtain rfl : q = 0 := Subsingleton.elim _ _
  show k0_pay2 (accP m c t.val t.isLt) (accT m c t.val t.isLt) (ix2 p (0 : Fin 1))
    = rowLoss m c ((((cfg0.win 4).blk t).view.emb (ix2 p (0 : Fin 1))) 0)
  refine (rowLoss_eq m c _ t p ht ?_).symm
  show win0_4.index t (0 : Fin 2) * 1024 + 1 * p.val = 1024 * (t.val / 8) + p.val
  omega

/-- An index of the output array is in point `t`'s block iff each coordinate is in the block's range. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- Every row is written back: by the last column tile of its row block. -/
theorem cover4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  refine ⟨⟨8 * ((i 0).val / 1024) + 7, lastPt_lt (i 0)⟩, (flush0_4 _).mpr (by show (8 * ((i 0).val / 1024) + 7) % 8 = 7; omega), ?_⟩
  obtain ⟨-, -, -, -, -, -, -, -, e0, e1⟩ := idx_facts ⟨8 * ((i 0).val / 1024) + 7, lastPt_lt (i 0)⟩
  have e0' : win0_4.index ⟨8 * ((i 0).val / 1024) + 7, lastPt_lt (i 0)⟩ (0 : Fin 2) = (8 * ((i 0).val / 1024) + 7) / 8 := e0
  rw [mem_blk4]
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 1 ≤ (i 1).val ∧ (i 1).val < win0_4.index _ (1 : Fin 2) * 1 + 1; omega

/-- THE OUTPUT ARRAY after the region: every row at its loss. -/
theorem arrAt4 (c : Dev nD) : (dats m 0 c).arrAt 4 cfg0.N = outArr m c :=
  (dats m 0 c).arrAt_eq_of_cover 4 (outArr m c) (fun t hf => flushed4_eq m c t ((flush0_4 t).mp hf)) cover4

/-- The output array at a row. -/
theorem outArr_apply (c : Dev nD) (r : Fin 8192) : outArr m c (ix2 r (0 : Fin 1)) = rowLoss m c r := rfl

end Cert.KernelIdeal.Hand

end
-- ==== Proof.Scale.lean ====
/- The kernel's named scale is the reciprocal of the real the reference's divisor `0.1f` denotes: the table gives
   "inv_temperature" the rational `134217728 / 13421773`, which is `1 / (13421773 / 134217728)`. So multiplying by
   the one and dividing by the other are the same operation on every extended real. -/
import proofs.«113577_j7507602833891_2_alg».proof.Defs
import proofs.«113577_j7507602833891_2_alg».proof.Proof.RefRows

noncomputable section

namespace Cert.ReferenceIdeal.Hand

open Idealize.ShloMosaic

/-- The kernel's named constant is `scale` at the ideal instance, by the certificate's table. -/
theorem inv_temperature :
    Named.named (F := Ideal) Cert.KernelIdeal.κ "inv_temperature" (φ := .f32) 0x41200000#32 = scale :=
  IdealRules.named_const.ideal_named_scalar _ _ _ _ rfl

/-- The one entry of the ledger: the table's value for "inv_temperature". -/
theorem preserves : Cert.preserves_Kernel_KernelIdeal :=
  IdealRules.named_const.statement Cert.KernelIdeal.κ "inv_temperature" .f32 0x41200000#32
    ((134217728 / 13421773 : ℝ) : EReal) rfl

end Cert.ReferenceIdeal.Hand

end
-- ==== Proof.PayloadRows.lean ====
/- The kernel body's arithmetic read at an index, at the ideal instance: the exponentiated scaled similarity tile, the
   two accumulator updates (a lane sum of the tile, and of the tile masked by equal ids), the zero start, and the
   final negated log of the quotient. Pure: over variables of the literal vector types, no memory. -/
import proofs.«113577_j7507602833891_2_alg».proof.Proof.Gen.KernelIdeal.Skeleton
import proofs.«113577_j7507602833891_2_alg».proof.Proof.Scale
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.ReferenceIdeal.Hand
open Idealize.ShloMosaic Idealize.ShloMosaic.ValueIdx
open scoped BigOperators

/-- The kernel's named scale at the ideal instance. -/
theorem named : Named.named (F := Ideal) Cert.KernelIdeal.κ "inv_temperature" (φ := .f32) 0x41200000#32 = scale :=
  inv_temperature

/-! ## The matrix product's operand indices -/

theorem lhs_dot_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem lhs_dot_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_dot_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem rhs_dot_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of a row block with the transpose of a column block, into a zero accumulator, at `(p, l)`: the sum
    over the 512 features of row `p` of the one times row `l` of the other. -/
theorem matmul_at (x0 x1 : FVec Ideal S1024x512 .bf16) (p l : Fin 1024) :
    FloatOps.matmul dot_S1024x512_S1024x512_S1024x1024_1_1_0_0_n_n none x0 x1 (constant (F := Ideal) S1024x1024 .f32 0x00000000#32) (ix2 p l)
      = ∑ d : Fin 512, x0 (ix2 p d) * x1 (ix2 l d) := by
  rw [Ideal.matmul_constant_zero_apply,
    ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p l)
      ((ValueIdx.contrEquiv1 dot_S1024x512_S1024x512_S1024x1024_1_1_0_0_n_n 512 rfl rfl).symm k) = ix2 p k :=
    funext fun a => Fin.ext (by
      match a with
      | ⟨0, _⟩ => exact lhs_dot_0 _ _
      | ⟨1, _⟩ => exact (lhs_dot_1 _ _).trans hk)
  have er : dot_S1024x512_S1024x512_S1024x1024_1_1_0_0_n_n.rhsIdx (ix2 p l)
      ((ValueIdx.contrEquiv1 dot_S1024x512_S1024x512_S1024x1024_1_1_0_0_n_n 512 rfl rfl).symm k) = ix2 l k :=
    funext fun a => Fin.ext (by
      match a with
      | ⟨0, _⟩ => exact rhs_dot_0 _ _
      | ⟨1, _⟩ => exact (rhs_dot_1 _ _).trans hk)
  rw [el, er]

/-! ## The exponentiated similarity tile -/

/-- The tile at `(p, l)`: `exp` of the scaled inner product of row `p` of the row block and row `l` of the column block. -/
theorem pay5_at (x0 x1 : Vec Ideal S1024x512 .bf16) (p l : Fin 1024) :
    k0_pay5 (F := Ideal) x0 x1 (ix2 p l) = Ideal.exp ((∑ d : Fin 512, x0 (ix2 p d) * x1 (ix2 l d)) * scale) := by
  unfold k0_pay5
  simp only [shapeCast_self]
  show Ideal.exp (FloatOps.matmul dot_S1024x512_S1024x512_S1024x1024_1_1_0_0_n_n none x0 x1
      (constant (F := Ideal) S1024x1024 .f32 0x00000000#32) (ix2 p l)
    * Named.named (F := Ideal) Cert.KernelIdeal.κ "inv_temperature" (φ := .f32) 0x41200000#32) = _
  rw [matmul_at, named]

/-! ## Layout operations of a column: a lane sum kept as a column, a column broadcast over the lanes -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a `[1024, 1024]` tile, kept as a column, at row `p`: the sum over the row's 1024 lanes. -/
theorem laneSum_at (t : FVec Ideal S1024x1024 .f32) (p : Fin 1024) (u : Fin 1) :
    shapeCast S1024x1 (multiReduction (F := Ideal) .add [1] S1024 t 0x00000000#32 reduces_S1024x1024_S1024 (.inl rfl) rfl)
        shapeCasts_S1024_S1024x1 (ix2 p u)
      = ∑ l : Fin 1024, t (ix2 p l) := by
  refine (shapeCast_a_a1_apply _ shapeCasts_S1024_S1024x1 p u).trans ?_
  refine (Ideal.multiReduction_add_single t 0x00000000#32 reduces_S1024x1024_S1024 (.inl rfl) rfl (ix1 p)).trans ?_
  refine Finset.sum_congr rfl fun k _ => ?_
  exact congrArg t (funext fun a => Fin.ext (by match a with | ⟨0, _⟩ => rfl | ⟨1, _⟩ => rfl))

/-! ## The accumulator updates, the zero start and the final quotient -/

/-- The total accumulator's update at row `p`: what it held plus the lane sum, from zero, of the tile's row. -/
theorem pay6_at (x0 x1 : Vec Ideal S1024x512 .bf16) (tacc : Vec Ideal S1024x1 .f32) (p : Fin 1024) :
    k0_pay6 (F := Ideal) x0 x1 tacc (ix2 p (0 : Fin 1))
      = tacc (ix2 p (0 : Fin 1)) + (0 + ∑ l : Fin 1024, k0_pay5 (F := Ideal) x0 x1 (ix2 p l)) := by
  unfold k0_pay6
  simp only [shapeCast_self]
  rw [zero_add]
  exact congrArg (tacc (ix2 p (0 : Fin 1)) + ·) (laneSum_at (k0_pay5 (F := Ideal) x0 x1) p 0)

/-- The in-cluster accumulator's update at row `p`: what it held plus the lane sum, from zero, of the tile's row
    where the row's id equals the lane's id, and zero elsewhere. -/
theorem pay17_at (x0 x1 : Vec Ideal S1024x512 .bf16) (x2 : Vec Ideal S1024x1 .i32) (x3 : Vec Ideal S1x1024 .i32)
    (pacc : Vec Ideal S1024x1 .f32) (p : Fin 1024) :
    k0_pay1 (F := Ideal) (k0_pay7 (F := Ideal) x0 x1 x2 x3 pacc) (ix2 p (0 : Fin 1))
      = pacc (ix2 p (0 : Fin 1))
        + (0 + ∑ l : Fin 1024, if x2 (ix2 p (0 : Fin 1)) = x3 (ix2 (0 : Fin 1) l) then k0_pay5 (F := Ideal) x0 x1 (ix2 p l) else 0) := by
  unfold k0_pay1 k0_pay7
  simp only [shapeCast_self]
  rw [zero_add]
  refine congrArg (pacc (ix2 p (0 : Fin 1)) + ·) ((laneSum_at _ p 0).trans ?_)
  refine Finset.sum_congr rfl fun l _ => ?_
  rw [select_apply]
  show (if IntOp.cmpi .eq (broadcastTo S1024x1024 x2 broadcasts_S1024x1_S1024x1024 (ix2 p l))
      (broadcastTo S1024x1024 x3 broadcasts_S1x1024_S1024x1024 (ix2 p l)) = 1#1
    then k0_pay5 (F := Ideal) x0 x1 (ix2 p l) else Ideal.ofBits .f32 0x00000000#32) = _
  rw [broadcastTo_a1_ab_apply, broadcastTo_1b_ab_apply, Ideal.ofBits_zero_f32]
  exact if_congr IntOp.cmpi_eq rfl rfl

/-- The in-cluster accumulator starts at zero. -/
theorem pay3_at (p : Fin 1024) : k0_pay3 (F := Ideal) (ix2 p (0 : Fin 1)) = 0 := by
  unfold k0_pay3
  simp only [shapeCast_self]
  exact Ideal.ofBits_zero_f32

/-- The total accumulator starts at zero. -/
theorem pay4_at (p : Fin 1024) : k0_pay4 (F := Ideal) (ix2 p (0 : Fin 1)) = 0 := by
  unfold k0_pay4
  simp only [shapeCast_self]
  exact Ideal.ofBits_zero_f32

/-- The final value at row `p`: zero minus the log of the in-cluster accumulator over the total plus `eps`. -/
theorem pay2_at (Pv Tv : Vec Ideal S1024x1 .f32) (p : Fin 1024) :
    k0_pay2 (F := Ideal) Pv Tv (ix2 p (0 : Fin 1))
      = 0 - Ideal.log (Ideal.div (Pv (ix2 p (0 : Fin 1))) (Tv (ix2 p (0 : Fin 1)) + epsWord)) := by
  unfold k0_pay2
  show Ideal.ofBits .f32 0x00000000#32 - Ideal.log (Ideal.div (Pv (ix2 p (0 : Fin 1))) (Tv (ix2 p (0 : Fin 1)) + Ideal.ofBits .f32 0x322BCC77#32)) = _
  rw [Ideal.ofBits_zero_f32]
  rfl

end Cert.KernelIdeal.Hand

end
-- ==== Proof.FoldRows.lean ====
/- The kernel's two accumulators over the 8 column tiles, read row by row: with each step's row block (features and
   ids) and column tile (features and ids) identified with the global arrays, the total accumulator after tile `J`
   is `TkUpTo … (J + 1)`, the in-cluster accumulator `PkUpTo … (J + 1)`, and the final value after tile 7 is the
   row loss. -/
import proofs.«113577_j7507602833891_2_alg».proof.Proof.PayloadRows

noncomputable section

namespace Cert.KernelIdeal.Hand

open Cert.KernelIdeal Cert.KernelIdeal.Gen Cert.ReferenceIdeal.Hand
open Idealize.ShloMosaic Idealize.ShloMosaic.ValueIdx
open scoped BigOperators

section
variable (fn : Fin 8192 → Fin 512 → EReal) (cl : Fin 8192 → BitVec 32) (I : Fin 8)

/-! ## One column tile -/

/-- The tile of row block `I` against column tile `J` is the global `e` at (row `1024 I + p`, column `1024 J + l`). -/
theorem pay5_tile (J : Fin 8) (x0 x1 : Vec Ideal S1024x512 .bf16)
    (h0 : ∀ (p : Fin 1024) (d : Fin 512), x0 (ix2 p d) = fn (col I p) d)
    (h1 : ∀ (l : Fin 1024) (d : Fin 512), x1 (ix2 l d) = fn (col J l) d) (p l : Fin 1024) :
    k0_pay5 (F := Ideal) x0 x1 (ix2 p l) = e fn scale (col I p) (col J l) := by
  rw [pay5_at]
  unfold e
  simp only [h0, h1]

/-- One step of the total accumulator: from `TkUpTo … J` to `TkUpTo … (J + 1)`. -/
theorem tot_step (J : Fin 8) (x0 x1 : Vec Ideal S1024x512 .bf16)
    (h0 : ∀ (p : Fin 1024) (d : Fin 512), x0 (ix2 p d) = fn (col I p) d)
    (h1 : ∀ (l : Fin 1024) (d : Fin 512), x1 (ix2 l d) = fn (col J l) d)
    (tacc : Vec Ideal S1024x1 .f32) (p : Fin 1024)
    (ht : tacc (ix2 p (0 : Fin 1)) = TkUpTo fn scale (col I p) J.val) :
    k0_pay6 (F := Ideal) x0 x1 tacc (ix2 p (0 : Fin 1)) = TkUpTo fn scale (col I p) (J.val + 1) := by
  rw [pay6_at, ht]
  unfold TkUpTo
  rw [accUpTo_fin_succ]
  unfold tileSum
  simp only [pay5_tile fn I J x0 x1 h0 h1]

/-- One step of the in-cluster accumulator: from `PkUpTo … J` to `PkUpTo … (J + 1)`. -/
theorem pos_step (J : Fin 8) (x0 x1 : Vec Ideal S1024x512 .bf16) (x2 : Vec Ideal S1024x1 .i32) (x3 : Vec Ideal S1x1024 .i32)
    (h0 : ∀ (p : Fin 1024) (d : Fin 512), x0 (ix2 p d) = fn (col I p) d)
    (h1 : ∀ (l : Fin 1024) (d : Fin 512), x1 (ix2 l d) = fn (col J l) d)
    (h2 : ∀ p : Fin 1024, x2 (ix2 p (0 : Fin 1)) = cl (col I p))
    (h3 : ∀ l : Fin 1024, x3 (ix2 (0 : Fin 1) l) = cl (col J l))
    (pacc : Vec Ideal S1024x1 .f32) (p : Fin 1024)
    (hp : pacc (ix2 p (0 : Fin 1)) = PkUpTo fn cl scale (col I p) J.val) :
    k0_pay1 (F := Ideal) (k0_pay7 (F := Ideal) x0 x1 x2 x3 pacc) (ix2 p (0 : Fin 1))
      = PkUpTo fn cl scale (col I p) (J.val + 1) := by
  rw [pay17_at, hp]
  unfold PkUpTo
  rw [accUpTo_fin_succ]
  unfold tileSum sel
  simp only [h2, h3, pay5_tile fn I J x0 x1 h0 h1]

/-- The final value from the two accumulators after all 8 tiles is the whole-row row loss. -/
theorem loss_of_acc (Pv Tv : Vec Ideal S1024x1 .f32) (p : Fin 1024)
    (hP : Pv (ix2 p (0 : Fin 1)) = PkUpTo fn cl scale (col I p) 8)
    (hT : Tv (ix2 p (0 : Fin 1)) = TkUpTo fn scale (col I p) 8) :
    k0_pay2 (F := Ideal) Pv Tv (ix2 p (0 : Fin 1)) = refRow fn cl scale epsWord (col I p) := by
  rw [pay2_at, hP, hT, ← kerRow_eq_refRow]
  rfl

/-! ## The accumulators as a recursion over the column tiles -/

/-- One tile's update of the pair (in-cluster accumulator, total accumulator). -/
def tileStep (x0 x1 : Vec Ideal S1024x512 .bf16) (x2 : Vec Ideal S1024x1 .i32) (x3 : Vec Ideal S1x1024 .i32)
    (a : Vec Ideal S1024x1 .f32 × Vec Ideal S1024x1 .f32) : Vec Ideal S1024x1 .f32 × Vec Ideal S1024x1 .f32 :=
  (k0_pay1 (F := Ideal) (k0_pay7 (F := Ideal) x0 x1 x2 x3 a.1), k0_pay6 (F := Ideal) x0 x1 a.2)

/-- The pair after column tile `J`: tile 0 updates the zero start, each later tile what the one before left. The four
    tiles read at each step are that step's own. -/
def accPair (b0 b1 : Fin 8 → Vec Ideal S1024x512 .bf16) (b2 : Fin 8 → Vec Ideal S1024x1 .i32)
    (b3 : Fin 8 → Vec Ideal S1x1024 .i32) : (J : Nat) → J < 8 → Vec Ideal S1024x1 .f32 × Vec Ideal S1024x1 .f32
  | 0, h => tileStep (b0 ⟨0, h⟩) (b1 ⟨0, h⟩) (b2 ⟨0, h⟩) (b3 ⟨0, h⟩) (k0_pay3 (F := Ideal), k0_pay4 (F := Ideal))
  | J + 1, h => tileStep (b0 ⟨J + 1, h⟩) (b1 ⟨J + 1, h⟩) (b2 ⟨J + 1, h⟩) (b3 ⟨J + 1, h⟩)
      (accPair b0 b1 b2 b3 J (Nat.lt_of_succ_lt h))

theorem accPair_zero (b0 b1 : Fin 8 → Vec Ideal S1024x512 .bf16) (b2 : Fin 8 → Vec Ideal S1024x1 .i32)
    (b3 : Fin 8 → Vec Ideal S1x1024 .i32) (h : 0 < 8) :
    accPair b0 b1 b2 b3 0 h
      = tileStep (b0 ⟨0, h⟩) (b1 ⟨0, h⟩) (b2 ⟨0, h⟩) (b3 ⟨0, h⟩) (k0_pay3 (F := Ideal), k0_pay4 (F := Ideal)) := rfl

theorem accPair_succ (b0 b1 : Fin 8 → Vec Ideal S1024x512 .bf16) (b2 : Fin 8 → Vec Ideal S1024x1 .i32)
    (b3 : Fin 8 → Vec Ideal S1x1024 .i32) (J : Nat) (h : J + 1 < 8) :
    accPair b0 b1 b2 b3 (J + 1) h
      = tileStep (b0 ⟨J + 1, h⟩) (b1 ⟨J + 1, h⟩) (b2 ⟨J + 1, h⟩) (b3 ⟨J + 1, h⟩)
          (accPair b0 b1 b2 b3 J (Nat.lt_of_succ_lt h)) := rfl

variable (b0 b1 : Fin 8 → Vec Ideal S1024x512 .bf16) (b2 : Fin 8 → Vec Ideal S1024x1 .i32)
  (b3 : Fin 8 → Vec Ideal S1x1024 .i32)
  (h0 : ∀ (J : Fin 8) (p : Fin 1024) (d : Fin 512), b0 J (ix2 p d) = fn (col I p) d)
  (h1 : ∀ (J : Fin 8) (l : Fin 1024) (d : Fin 512), b1 J (ix2 l d) = fn (col J l) d)
  (h2 : ∀ (J : Fin 8) (p : Fin 1024), b2 J (ix2 p (0 : Fin 1)) = cl (col I p))
  (h3 : ∀ (J : Fin 8) (l : Fin 1024), b3 J (ix2 (0 : Fin 1) l) = cl (col J l))

include h0 h1 h2 h3 in
/-- After column tile `J` the pair holds, at row `p`, the two partial accumulators of global row `1024 I + p`. -/
theorem accPair_at (p : Fin 1024) (J : Nat) (h : J < 8) :
    (accPair b0 b1 b2 b3 J h).1 (ix2 p (0 : Fin 1)) = PkUpTo fn cl scale (col I p) (J + 1)
    ∧ (accPair b0 b1 b2 b3 J h).2 (ix2 p (0 : Fin 1)) = TkUpTo fn scale (col I p) (J + 1) := by
  induction J with
  | zero =>
    exact ⟨pos_step fn cl I ⟨0, h⟩ _ _ _ _ (h0 _) (h1 _) (h2 _) (h3 _) _ p (pay3_at p),
      tot_step fn I ⟨0, h⟩ _ _ (h0 _) (h1 _) _ p (pay4_at p)⟩
  | succ J ih =>
    have ih' := ih (Nat.lt_of_succ_lt h)
    exact ⟨pos_step fn cl I ⟨J + 1, h⟩ _ _ _ _ (h0 _) (h1 _) (h2 _) (h3 _) _ p ih'.1,
      tot_step fn I ⟨J + 1, h⟩ _ _ (h0 _) (h1 _) _ p ih'.2⟩

include h0 h1 h2 h3 in
/-- The final value computed from the pair after the last tile is the row loss of global row `1024 I + p`. -/
theorem loss_at (p : Fin 1024) (h7 : 7 < 8) :
    k0_pay2 (F := Ideal) (accPair b0 b1 b2 b3 7 h7).1 (accPair b0 b1 b2 b3 7 h7).2 (ix2 p (0 : Fin 1))
      = refRow fn cl scale epsWord (col I p) :=
  have h := accPair_at fn cl I b0 b1 b2 b3 h0 h1 h2 h3 p 7 h7
  loss_of_acc fn cl I _ _ p h.1 h.2

end

end Cert.KernelIdeal.Hand

end
-- ==== Proof.KernelIdeal.RowGlue.lean ====
/-
  The kernel's row loss is the reference's.

  Fix a row block I. Going through its eight column tiles in order, the two accumulators at row p hold, after
  tile J, the partial sums over the first J + 1 tiles of the exponentials of row 1024·I + p against the columns
  (all of them for the total, those with the row's cluster id for the positive part): at tile 0 they start from
  zero, at each later tile from what the tile before left, and the blocks the body reads there are rows of the
  normalised features and of the ids. After tile 7 the closing formula gives the row's loss.
-/
import proofs.«113577_j7507602833891_2_alg».proof.Proof.KernelIdeal.OutArray
import proofs.«113577_j7507602833891_2_alg».proof.Proof.KernelIdeal.Staged
import proofs.«113577_j7507602833891_2_alg».proof.Proof.FoldRows
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable (mI : (ℓ : Loc nD τ sig) → Buf (Elt Ideal) ℓ)

open Idealize.ShloMosaic.ValueIdx
open Cert.ReferenceIdeal.Hand

/-- The reference's normalised features of core `c`'s first argument, -/
abbrev fnA (c : Dev nD) : Fin 8192 → Fin 512 → EReal := refFn (mI ((c.tc : Thread nD τ).loc main_arg0))
/-- and its cluster ids. -/
abbrev clA (c : Dev nD) : Fin 8192 → BitVec 32 := refCl (mI ((c.tc : Thread nD τ).loc main_arg1))

/-- After column tile `J` of row block `I` the two accumulators hold, at row `p`, the partial sums of row
    `1024 · I + p` over the first `J + 1` tiles. -/
theorem acc_at (c : Dev nD) (I : Fin 8) : ∀ (J : ℕ) (hJ : J < 8) (t : Fin cfg0.N) (ht : t.val = 8 * I.val + J) (p : Fin 1024),
    accP mI c t.val t.isLt (ix2 p (0 : Fin 1)) = PkUpTo (fnA mI c) (clA mI c) scale (col I p) (J + 1)
    ∧ accT mI c t.val t.isLt (ix2 p (0 : Fin 1)) = TkUpTo (fnA mI c) scale (col I p) (J + 1) := by
  intro J
  induction J with
  | zero =>
    intro hJ t ht p
    have h0 : t.val % 8 = 0 := by omega
    have hI : rowBlk t = I := Fin.ext (by show t.val / 8 = I.val; omega)
    have hJ' : colTile t = ⟨0, hJ⟩ := Fin.ext (by show t.val % 8 = 0; omega)
    have b0 : ∀ (p : Fin 1024) (d : Fin 512), iblk mI c 0 t (ix2 p d) = fnA mI c (col I p) d := fun p d => by
      rw [iblk0_apply, staged_v5, hI]
    have b1 : ∀ (l : Fin 1024) (d : Fin 512), iblk mI c 1 t (ix2 l d) = fnA mI c (col ⟨0, hJ⟩ l) d := fun l d => by
      rw [iblk1_apply, staged_v5, hJ']
    have b2 : ∀ p : Fin 1024, iblk mI c 2 t (ix2 p (0 : Fin 1)) = clA mI c (col I p) := fun p => by
      rw [iblk2_apply, staged_v6, hI]
    have b3 : ∀ l : Fin 1024, iblk mI c 3 t (ix2 (0 : Fin 1) l) = clA mI c (col ⟨0, hJ⟩ l) := fun l => by
      rw [iblk3_apply, staged_v7, hJ']
    rw [accP_first mI c t h0, accT_first mI c t h0]
    exact ⟨pos_step (fnA mI c) (clA mI c) I ⟨0, hJ⟩ _ _ _ _ b0 b1 b2 b3 _ p (pay3_at p),
      tot_step (fnA mI c) I ⟨0, hJ⟩ _ _ b0 b1 _ p (pay4_at p)⟩
  | succ J ih =>
    intro hJ t ht p
    have h0 : ¬t.val % 8 = 0 := by omega
    have hI : rowBlk t = I := Fin.ext (by show t.val / 8 = I.val; omega)
    have hJ' : colTile t = ⟨J + 1, hJ⟩ := Fin.ext (by show t.val % 8 = J + 1; omega)
    have b0 : ∀ (p : Fin 1024) (d : Fin 512), iblk mI c 0 t (ix2 p d) = fnA mI c (col I p) d := fun p d => by
      rw [iblk0_apply, staged_v5, hI]
    have b1 : ∀ (l : Fin 1024) (d : Fin 512), iblk mI c 1 t (ix2 l d) = fnA mI c (col ⟨J + 1, hJ⟩ l) d := fun l d => by
      rw [iblk1_apply, staged_v5, hJ']
    have b2 : ∀ p : Fin 1024, iblk mI c 2 t (ix2 p (0 : Fin 1)) = clA mI c (col I p) := fun p => by
      rw [iblk2_apply, staged_v6, hI]
    have b3 : ∀ l : Fin 1024, iblk mI c 3 t (ix2 (0 : Fin 1) l) = clA mI c (col ⟨J + 1, hJ⟩ l) := fun l => by
      rw [iblk3_apply, staged_v7, hJ']
    have ih' := ih (Nat.lt_of_succ_lt hJ) ⟨t.val - 1, Nat.lt_of_le_of_lt (Nat.sub_le _ _) t.isLt⟩ (by show t.val - 1 = 8 * I.val + J; omega) p
    rw [accP_next mI c t h0, accT_next mI c t h0]
    exact ⟨pos_step (fnA mI c) (clA mI c) I ⟨J + 1, hJ⟩ _ _ _ _ b0 b1 b2 b3 _ p ih'.1,
      tot_step (fnA mI c) I ⟨J + 1, hJ⟩ _ _ b0 b1 _ p ih'.2⟩

/-- THE ROW LOSS: what the kernel leaves at row `r` of its output is the reference's loss of that row. -/
theorem rowLoss_ref (c : Dev nD) (r : Fin 8192) :
    rowLoss mI c r = refRow (fnA mI c) (clA mI c) scale epsWord r := by
  have hr8 : r.val < 8192 := r.isLt
  have hN : cfg0.N = 64 := N_0
  have hr : r = col ⟨r.val / 1024, by omega⟩ ⟨r.val % 1024, Nat.mod_lt _ (by decide)⟩ :=
    Fin.ext (by show r.val = 1024 * (r.val / 1024) + r.val % 1024; omega)
  have h := acc_at mI c ⟨r.val / 1024, by omega⟩ 7 (by decide) ⟨8 * (r.val / 1024) + 7, lastPt_lt r⟩ rfl ⟨r.val % 1024, Nat.mod_lt _ (by decide)⟩
  have hl := loss_of_acc (fnA mI c) (clA mI c) ⟨r.val / 1024, by omega⟩ _ _ ⟨r.val % 1024, Nat.mod_lt _ (by decide)⟩ h.1 h.2
  rw [← hr] at hl
  exact hl

end Cert.KernelIdeal.Hand

end
-- ==== Proof.RefFrame.lean ====
/- The reference program's frame: its generated run with the result dropped. -/
import proofs.«113577_j7507602833891_2_alg».proof.Defs
import proofs.«113577_j7507602833891_2_alg».proof.Proof.Gen.ReferenceIdeal
import proofs.«113577_j7507602833891_2_alg».proof.Proof.Gen.Pre_finite_inputs
import proofs.«113577_j7507602833891_2_alg».proof.Proof.Gen.ReferenceIdeal.Run
import proofs.«113577_j7507602833891_2_alg».proof.Proof.Gen.ReferenceIdeal.Read

noncomputable section

namespace Cert.ReferenceIdeal.Hand

open Idealize.ShloMosaic Idealize.SL.Sem

/-- Every weakly fair execution of the reference terminates with its two argument arrays unchanged. -/
theorem frame_ri : Cert.frame_ReferenceIdeal :=
  fun m ρ _ => (θ_run Cert.ReferenceIdeal.defs _ _).mono (fun _ h c => (h c).2) (Cert.ReferenceIdeal.Value.run (F := Ideal) m ρ)

end Cert.ReferenceIdeal.Hand

end
-- ==== Proof.KernelIdeal.Result.lean ====
import proofs.«113577_j7507602833891_2_alg».proof.Proof.KernelIdeal.Staged
import proofs.«113577_j7507602833891_2_alg».proof.Proof.KernelIdeal.OutArray
import proofs.«113577_j7507602833891_2_alg».proof.Proof.KernelIdeal.RowGlue
import proofs.«113577_j7507602833891_2_alg».proof.Proof.Kernel.Frames
import proofs.«113577_j7507602833891_2_alg».proof.Proof.RefFrame
import proofs.«113577_j7507602833891_2_alg».proof.Proof.Scale

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.Hand (refFn refCl refRow scale epsWord rowsArr refResult)

variable (m : (ℓ : Loc nD τ sig) → Buf (Elt Ideal) ℓ) (ρ : Dev nD → PrngReg)

/-!
  The idealized kernel's result. Row r of the array the write-backs leave is 0 - log(pos / (tot + eps)) of the sums
  accumulated over the eight column tiles; tile by tile those are the reference's sums over all 8192 columns, and the
  selection by equal ids is the product with the reference's 0/1 mask, so the row is the reference's row loss. The
  closing sum is the same host operation on both sides.
-/

/-- The array of per-row losses the kernel leaves is the reference's. -/
theorem outArr_ref (c : Dev nD) :
    outArr m c = rowsArr (m ((c.tc : Thread nD τ).loc main_arg0)) (m ((c.tc : Thread nD τ).loc main_arg1)) :=
  funext fun i => rowLoss_ref m c (i 0)

/-- The idealized kernel runs, its result is the reference's closed form of its own arguments, and the arguments end
    unchanged. -/
theorem run_value : θ_run defs (onTc (τ := τ) (main (F := Ideal))) ⟨m, fun _ => 0, ρ⟩ (fun r => ∀ c : Dev nD,
      r.2.mem ((c.tc : Thread nD τ).loc main_v9) = refResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 rfl (by decide))).trans
        ((endVal_v9 m (Hand.dats m) c).trans (by rw [arrAt4 m c, outArr_ref m c]; rfl)),
     ((h c).2 main_arg0 (Pipeline.mem_restRefs_of main_arg0 rfl (by decide))).trans (endVal_arg0 m (Hand.dats m) c),
     ((h c).2 main_arg1 (Pipeline.mem_restRefs_of main_arg1 rfl (by decide))).trans (endVal_arg1 m (Hand.dats m) c)⟩) (run_main m ρ)

end Cert.KernelIdeal.Hand

namespace Cert.Proof.Claims

open Idealize.ShloMosaic Idealize.SL.Sem

theorem algebraic : Cert.algebraic_KernelIdeal_ReferenceIdeal := by
  intro m ρ m' ρ' _ hagree
  refine ⟨fun c => Cert.ReferenceIdeal.Hand.refResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩) (Cert.ReferenceIdeal.Hand.run_ref m' ρ')
  rw [(hagree c).1, (hagree c).2]

end Cert.Proof.Claims

end
-- ==== Proof.lean ====
/-
  The certificate of a contrastive clustering loss computed tile by tile against its plain reference.

  Both programs normalise the rows of the features x (x / max(‖x‖, 1e-12)), form the similarities s_ij = ⟨x_i, x_j⟩ / T
  with T = f32(0.1), and return the sum over rows i of -log(pos_i / (tot_i + 1e-8)), where tot_i = Σ_j exp(s_ij) and
  pos_i is the same sum over the j in row i's cluster. The kernel walks an 8 × 8 grid of 1024 × 1024 tiles, keeps
  pos and tot for the current block of rows in two accumulators, selects by equality of ids, multiplies by a folded
  reciprocal of T (named exactly 1 / f32(0.1) on the extended reals) and negates as 0 - log; the reference sums over all
  8192 columns at once, masks by a product with 0 or 1, computes tot as pos + neg, divides by T and negates. On the
  extended reals these agree with no finiteness assumption: x·0 = 0 and x·1 = x for every x, sums regroup, division
  by a non-zero real is the product with its inverse, and 0 - x = -x.

  The row block and the column block of a tile are cut from ONE array; the run of the kernel program is therefore
  proved with that array held as two halves inside the region (Proof/SharedArray.lean, Proof/SharedLaunch.lean), the
  body once per case of its two conditions (Proof/…/Cases.lean), and the accumulators named point by point
  (Proof/…/Data.lean, Body.lean). The same text proves the word-level program's frame (Proof/Kernel/…).
-/
import proofs.«113577_j7507602833891_2_alg».proof.Defs
import proofs.«113577_j7507602833891_2_alg».proof.Proof.Gen.Kernel
import proofs.«113577_j7507602833891_2_alg».proof.Proof.Gen.KernelIdeal
import proofs.«113577_j7507602833891_2_alg».proof.Proof.Gen.ReferenceIdeal
import proofs.«113577_j7507602833891_2_alg».proof.Proof.Gen.Pre_finite_inputs
import proofs.«113577_j7507602833891_2_alg».proof.Proof.Kernel.Frames
import proofs.«113577_j7507602833891_2_alg».proof.Proof.KernelIdeal.Result
import proofs.«113577_j7507602833891_2_alg».proof.Proof.RefFrame
import proofs.«113577_j7507602833891_2_alg».proof.Proof.Scale
import Idealize.ShloMosaic.Adequacy
import Idealize.ShloMosaic.Init

noncomputable section

namespace Cert.Proof

open Idealize.ShloMosaic Idealize.SL.Sem

/-- The word-level kernel program runs and leaves its arguments unchanged. -/
theorem frame_p : Cert.frame_Kernel := fun m ρ _ => Cert.Kernel.Hand.frame (F := Bits) m ρ

/-- So does its idealization. -/
theorem frame_pi : Cert.frame_KernelIdeal := fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_p, frame_pi, Cert.ReferenceIdeal.Hand.frame_ri, Cert.ReferenceIdeal.Hand.preserves, Cert.Proof.Claims.algebraic⟩

end Cert.Proof

end
